-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S1x128 .f32) (main_v50 : FVec F S1x128 .f32) : IVec S_ 1 :=
  let main_v51 : IVec S1x128 1 := cmpf .olt main_v49 main_v50
  let main_c_19 : IVec S_ 1 := constantI S_ 1 1#1
  let main_v52 : IVec S_ 1 := (fun x v => Host.reduce IntOp.andi x v reducesTo_S1x128_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S128x128 .f32) (main_arg10 : FVec F S128x128 .f32) (main_arg11 : FVec F S128 .f32) (main_arg12 : FVec F S1x128 .f32) (main_arg13 : FVec F S1 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S1x128 .f32 := Host.absf main_arg12
  let main_cst_18 : FVec F S_ .f32 := constant S_ .f32 0x7F800000#32
  let main_v50 : FVec F S1x128 .f32 := broadcastInDim S1x128 ![] bcast_S_S1x128 main_cst_18
  fn_part3 (F := F) main_arg13 main_v48 main_v49 main_v50

def fn_part1 {F : FTy → Type} [FloatOps F] (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S1x128 .f32) (main_arg13 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x128 .f32) (main_arg1 : IVec S600000 32) (main_arg2 : IVec S600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S1x128 .f32) (main_arg13 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S5000x128 : Shape := ⟨2, ![5000, 128]⟩
abbrev S128x1 : Shape := ⟨2, ![128, 1]⟩
abbrev S1x1 : Shape := ⟨2, ![1, 1]⟩
abbrev S5000x1 : Shape := ⟨2, ![5000, 1]⟩

abbrev nBuf : Space → Nat
  | .hbm => 86
  | .vmem => 29
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S1x128, .f32⟩
  | .hbm, ⟨13, _⟩ => ⟨S1, .f32⟩
  | .hbm, ⟨14, _⟩ => ⟨S_, .f32⟩
  | .hbm, ⟨15, _⟩ => ⟨S600000, .f32⟩
  | .hbm, ⟨16, _⟩ => ⟨S_, .f32⟩
  | .hbm, ⟨17, _⟩ => ⟨S50000, .f32⟩
  | .hbm, ⟨18, _⟩ => ⟨S600000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S_, .i32⟩
  | .hbm, ⟨28, _⟩ => ⟨S600000, .i32⟩
  | .hbm, ⟨29, _⟩ => ⟨S600000, .i1⟩
  | .hbm, ⟨30, _⟩ => ⟨S_, .i32⟩
  | .hbm, ⟨31, _⟩ => ⟨S600000, .i32⟩
  | .hbm, ⟨32, _⟩ => ⟨S600000, .i32⟩
  | .hbm, ⟨33, _⟩ => ⟨S600000, .i32⟩
  | .hbm, ⟨34, _⟩ => ⟨S600000x1, .i32⟩
  | .hbm, ⟨35, _⟩ => ⟨S600000x128, .f32⟩
  | .hbm, ⟨36, _⟩ => ⟨S_, .f32⟩
  | .hbm, ⟨37, _⟩ => ⟨S50000x128, .f32⟩
  | .hbm, ⟨38, _⟩ => ⟨S600000x1, .i32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S128x128, .f32⟩
  | .hbm, ⟨43, _⟩ => ⟨S128x128, .f32⟩
  | .hbm, ⟨44, _⟩ => ⟨S1x128, .f32⟩
  | .hbm, ⟨45, _⟩ => ⟨S50000x128, .f32⟩
  | .hbm, ⟨46, _⟩ => ⟨S_, .i32⟩
  | .hbm, ⟨47, _⟩ => ⟨S600000, .i32⟩
  | .hbm, ⟨48, _⟩ => ⟨S600000, .i1⟩
  | .hbm, ⟨49, _⟩ => ⟨S_, .i32⟩
  | .hbm, ⟨50, _⟩ => ⟨S600000, .i32⟩
  | .hbm, ⟨51, _⟩ => ⟨S600000, .i32⟩
  | .hbm, ⟨52, _⟩ => ⟨S600000, .i32⟩
  | .hbm, ⟨53, _⟩ => ⟨S600000x1, .i32⟩
  | .hbm, ⟨54, _⟩ => ⟨S600000x128, .f32⟩
  | .hbm, ⟨55, _⟩ => ⟨S_, .f32⟩
  | .hbm, ⟨56, _⟩ => ⟨S50000x128, .f32⟩
  | .hbm, ⟨57, _⟩ => ⟨S600000x1, .i32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S128x128, .f32⟩
  | .hbm, ⟨62, _⟩ => ⟨S128x128, .f32⟩
  | .hbm, ⟨63, _⟩ => ⟨S1x128, .f32⟩
  | .hbm, ⟨64, _⟩ => ⟨S50000x128, .f32⟩
  | .hbm, ⟨65, _⟩ => ⟨S_, .i32⟩
  | .hbm, ⟨66, _⟩ => ⟨S600000, .i32⟩
  | .hbm, ⟨67, _⟩ => ⟨S600000, .i1⟩
  | .hbm, ⟨68, _⟩ => ⟨S_, .i32⟩
  | .hbm, ⟨69, _⟩ => ⟨S600000, .i32⟩
  | .hbm, ⟨70, _⟩ => ⟨S600000, .i32⟩
  | .hbm, ⟨71, _⟩ => ⟨S600000, .i32⟩
  | .hbm, ⟨72, _⟩ => ⟨S600000x1, .i32⟩
  | .hbm, ⟨73, _⟩ => ⟨S600000x128, .f32⟩
  | .hbm, ⟨74, _⟩ => ⟨S_, .f32⟩
  | .hbm, ⟨75, _⟩ => ⟨S50000x128, .f32⟩
  | .hbm, ⟨76, _⟩ => ⟨S600000x1, .i32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S128x128, .f32⟩
  | .hbm, ⟨81, _⟩ => ⟨S128x128, .f32⟩
  | .hbm, ⟨82, _⟩ => ⟨S1x128, .f32⟩
  | .hbm, ⟨83, _⟩ => ⟨S128x1, .f32⟩
  | .hbm, ⟨84, _⟩ => ⟨S1x1, .f32⟩
  | .hbm, ⟨85, _⟩ => ⟨S50000x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S128x1, .f32⟩
  | .local _ .vmem, ⟨26, _⟩ => ⟨S1x1, .f32⟩
  | .local _ .vmem, ⟨27, _⟩ => ⟨S5000x1, .f32⟩
  | .local _ .vmem, ⟨28, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_cst_2 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c : Ref sig .tc := ⟨.hbm, 27, rfl⟩
abbrev main_v9 : Ref sig .tc := ⟨.hbm, 28, rfl⟩
abbrev main_v10 : Ref sig .tc := ⟨.hbm, 29, rfl⟩
abbrev main_c_3 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_7 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_8 : Ref sig .tc := ⟨.hbm, 65, rfl⟩
abbrev main_v41 : Ref sig .tc := ⟨.hbm, 66, rfl⟩
abbrev main_v42 : Ref sig .tc := ⟨.hbm, 67, rfl⟩
abbrev main_c_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_10 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg7_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem7_1 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S1x128_S128x1_1_0 : S1x128.Transposes [1, 0] S128x1
  shapeCasts_S1_S1x1 : S1.ShapeCasts S1x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x1.size a ≤ S128x1.size a
  hwx2_5 : ∀ i : grid2.Coords, EltTy.bits .f32 = 32 ∨ (Rect.block (s := S128x1) S128x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x1.size a ≤ S50000x1.size a
  hwx2_7 : ∀ i : grid2.Coords, EltTy.bits .f32 = 32 ∨ (Rect.block (s := S50000x1) S5000x1.size (cc2_transform_7 i) (hinb2_7 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v40) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v53) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S128x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v57) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v58) S5000x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S128x1 : Shape := ⟨2, ![128, 1]⟩
abbrev S1x1 : Shape := ⟨2, ![1, 1]⟩

abbrev nBuf : Space → Nat
  | .hbm => 110
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S1x128, .f32⟩
  | .hbm, ⟨13, _⟩ => ⟨S1, .f32⟩
  | .hbm, ⟨14, _⟩ => ⟨S_, .f32⟩
  | .hbm, ⟨15, _⟩ => ⟨S600000, .f32⟩
  | .hbm, ⟨16, _⟩ => ⟨S_, .f32⟩
  | .hbm, ⟨17, _⟩ => ⟨S50000, .f32⟩
  | .hbm, ⟨18, _⟩ => ⟨S600000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S_, .i32⟩
  | .hbm, ⟨28, _⟩ => ⟨S600000, .i32⟩
  | .hbm, ⟨29, _⟩ => ⟨S600000, .i1⟩
  | .hbm, ⟨30, _⟩ => ⟨S_, .i32⟩
  | .hbm, ⟨31, _⟩ => ⟨S600000, .i32⟩
  | .hbm, ⟨32, _⟩ => ⟨S600000, .i32⟩
  | .hbm, ⟨33, _⟩ => ⟨S600000, .i32⟩
  | .hbm, ⟨34, _⟩ => ⟨S600000x1, .i32⟩
  | .hbm, ⟨35, _⟩ => ⟨S600000x128, .f32⟩
  | .hbm, ⟨36, _⟩ => ⟨S_, .f32⟩
  | .hbm, ⟨37, _⟩ => ⟨S50000x128, .f32⟩
  | .hbm, ⟨38, _⟩ => ⟨S600000x1, .i32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S128x128, .f32⟩
  | .hbm, ⟨43, _⟩ => ⟨S50000x128, .f32⟩
  | .hbm, ⟨44, _⟩ => ⟨S1x128, .f32⟩
  | .hbm, ⟨45, _⟩ => ⟨S50000x128, .f32⟩
  | .hbm, ⟨46, _⟩ => ⟨S50000x128, .f32⟩
  | .hbm, ⟨47, _⟩ => ⟨S128x128, .f32⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S50000x128, .f32⟩
  | .hbm, ⟨52, _⟩ => ⟨S50000x128, .f32⟩
  | .hbm, ⟨53, _⟩ => ⟨S_, .i32⟩
  | .hbm, ⟨54, _⟩ => ⟨S600000, .i32⟩
  | .hbm, ⟨55, _⟩ => ⟨S600000, .i1⟩
  | .hbm, ⟨56, _⟩ => ⟨S_, .i32⟩
  | .hbm, ⟨57, _⟩ => ⟨S600000, .i32⟩
  | .hbm, ⟨58, _⟩ => ⟨S600000, .i32⟩
  | .hbm, ⟨59, _⟩ => ⟨S600000, .i32⟩
  | .hbm, ⟨60, _⟩ => ⟨S600000x1, .i32⟩
  | .hbm, ⟨61, _⟩ => ⟨S600000x128, .f32⟩
  | .hbm, ⟨62, _⟩ => ⟨S_, .f32⟩
  | .hbm, ⟨63, _⟩ => ⟨S50000x128, .f32⟩
  | .hbm, ⟨64, _⟩ => ⟨S600000x1, .i32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S128x128, .f32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S128x128, .f32⟩
  | .hbm, ⟨74, _⟩ => ⟨S50000x128, .f32⟩
  | .hbm, ⟨75, _⟩ => ⟨S50000x128, .f32⟩
  | .hbm, ⟨76, _⟩ => ⟨S_, .f32⟩
  | .hbm, ⟨77, _⟩ => ⟨S50000x128, .f32⟩
  | .hbm, ⟨78, _⟩ => ⟨S50000x128, .f32⟩
  | .hbm, ⟨79, _⟩ => ⟨S_, .i32⟩
  | .hbm, ⟨80, _⟩ => ⟨S600000, .i32⟩
  | .hbm, ⟨81, _⟩ => ⟨S600000, .i1⟩
  | .hbm, ⟨82, _⟩ => ⟨S_, .i32⟩
  | .hbm, ⟨83, _⟩ => ⟨S600000, .i32⟩
  | .hbm, ⟨84, _⟩ => ⟨S600000, .i32⟩
  | .hbm, ⟨85, _⟩ => ⟨S600000, .i32⟩
  | .hbm, ⟨86, _⟩ => ⟨S600000x1, .i32⟩
  | .hbm, ⟨87, _⟩ => ⟨S600000x128, .f32⟩
  | .hbm, ⟨88, _⟩ => ⟨S_, .f32⟩
  | .hbm, ⟨89, _⟩ => ⟨S50000x128, .f32⟩
  | .hbm, ⟨90, _⟩ => ⟨S600000x1, .i32⟩
  | .hbm, ⟨91, _⟩ => ⟨S50000x128, .f32⟩
  | .hbm, ⟨92, _⟩ => ⟨S50000x128, .f32⟩
  | .hbm, ⟨93, _⟩ => ⟨S50000x128, .f32⟩
  | .hbm, ⟨94, _⟩ => ⟨S128x128, .f32⟩
  | .hbm, ⟨95, _⟩ => ⟨S50000x128, .f32⟩
  | .hbm, ⟨96, _⟩ => ⟨S1x128, .f32⟩
  | .hbm, ⟨97, _⟩ => ⟨S50000x128, .f32⟩
  | .hbm, ⟨98, _⟩ => ⟨S50000x128, .f32⟩
  | .hbm, ⟨99, _⟩ => ⟨S128x128, .f32⟩
  | .hbm, ⟨100, _⟩ => ⟨S50000x128, .f32⟩
  | .hbm, ⟨101, _⟩ => ⟨S50000x128, .f32⟩
  | .hbm, ⟨102, _⟩ => ⟨S_, .f32⟩
  | .hbm, ⟨103, _⟩ => ⟨S50000x128, .f32⟩
  | .hbm, ⟨104, _⟩ => ⟨S50000x128, .f32⟩
  | .hbm, ⟨105, _⟩ => ⟨S128x1, .f32⟩
  | .hbm, ⟨106, _⟩ => ⟨S50000x1, .f32⟩
  | .hbm, ⟨107, _⟩ => ⟨S1x1, .f32⟩
  | .hbm, ⟨108, _⟩ => ⟨S50000x1, .f32⟩
  | .hbm, ⟨109, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_cst_2 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c : Ref sig .tc := ⟨.hbm, 27, rfl⟩
abbrev main_v9 : Ref sig .tc := ⟨.hbm, 28, rfl⟩
abbrev main_v10 : Ref sig .tc := ⟨.hbm, 29, rfl⟩
abbrev main_c_3 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_call0_cst : Ref sig .tc := ⟨.hbm, 50, rfl⟩
abbrev main_call0_v0 : Ref sig .tc := ⟨.hbm, 51, rfl⟩
abbrev main_v29 : Ref sig .tc := ⟨.hbm, 52, rfl⟩
abbrev main_c_5 : Ref sig .tc := ⟨.hbm, 53, rfl⟩
abbrev main_v30 : Ref sig .tc := ⟨.hbm, 54, rfl⟩
abbrev main_v31 : Ref sig .tc := ⟨.hbm, 55, rfl⟩
abbrev main_c_6 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_7 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_call1_cst : Ref sig .tc := ⟨.hbm, 76, rfl⟩
abbrev main_call1_v0 : Ref sig .tc := ⟨.hbm, 77, rfl⟩
abbrev main_v50 : Ref sig .tc := ⟨.hbm, 78, rfl⟩
abbrev main_c_8 : Ref sig .tc := ⟨.hbm, 79, rfl⟩
abbrev main_v51 : Ref sig .tc := ⟨.hbm, 80, rfl⟩
abbrev main_v52 : Ref sig .tc := ⟨.hbm, 81, rfl⟩
abbrev main_c_9 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_10 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_call2_cst : Ref sig .tc := ⟨.hbm, 102, rfl⟩
abbrev main_call2_v0 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S1x128_S128x1_1_0 : S1x128.Transposes [1, 0] S128x1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KernelRun.lean ====
/-
  The idealized kernel's run with its result named. Every weakly fair execution of the three-layer program
  (host aggregation, layer 0, host aggregation, layer 1, host aggregation, layer 2 with the output head) ends,
  faults nowhere, leaves the fourteen argument arrays as launched, and leaves the result array at the contents
  the last region's write-backs leave: the fold of the program's segments from the launch memory, read at the
  result's buffer. What that fold IS, as a function of the arguments, is the business of the value modules.
-/
import proofs.«132443_j46265387712895_1_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents, the arguments as launched. -/
theorem run : θ_run defs (onTc (τ := τ) (main (F := F))) ⟨m, fun _ => 0, ρ⟩ (fun r => ∀ c : Dev nD,
      r.2.mem ((c.tc : Thread nD τ).loc main_v58) = W6 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v58 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c)⟩)

end Cert.KernelIdeal.ValueRun

end
-- ==== Proof.Body.lean ====
/-
  What each region's body leaves at one entry of its output block, on the extended reals.

  A block is 5000 consecutive rows of the node arrays. The body multiplies the block of features and the block of
  aggregated neighbour features by the two (already transposed) weight matrices, adds the products, adds the bias
  row to every row, and clamps at zero. Changing the float format is the identity on the extended reals, a matrix
  product into a zero accumulator is the plain sum over the contracted axis, and the shape casts here are between
  equal shapes. So the entry in row p and column q of the block is
      max( sum_k x0[p,k] * x2[k,q] + sum_k x1[p,k] * x3[k,q] + x4[0,q] , 0 ).
  The last region continues with one more product, against a 128 x 1 column, and adds a 1 x 1 bias.
-/
import proofs.«132443_j46265387712895_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The two matrix products at an entry -/

theorem lhsA_0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem rhsA_1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000 x 128 block times a 128 x 128 matrix, into zero: entry (p, q) is row p against column q. -/
theorem mmA_apply {φ₁ φ₂ : FTy} (x : FVec Ideal S5000x128 φ₁) (w : FVec Ideal S128x128 φ₂) (p : Fin 5000) (q : Fin 128) :
    matmul (F := Ideal) dot_S5000x128_S128x128_S5000x128_1_0_0_1_n_n none x w (constant (F := Ideal) S5000x128 .f32 0x00000000#32) (ix2 p q)
      = ∑ k : Fin 128, x (ix2 p k) * w (ix2 k q) := by
  refine (Ideal.matmul_constant_zero_apply dot_S5000x128_S128x128_S5000x128_1_0_0_1_n_n none x w (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhsA_0 _ _
    | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl _ _).trans hk
    | ⟨1, _⟩ => exact rhsA_1 _ _)
  rw [el, er]

theorem lhsB_0 (i : S5000x1.Idx) (q : dot_S5000x128_S128x1_S5000x1_1_0_0_1_n_n.contr.Idx) : (dot_S5000x128_S128x1_S5000x1_1_0_0_1_n_n.lhsIdx i q 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
theorem rhsB_1 (i : S5000x1.Idx) (q : dot_S5000x128_S128x1_S5000x1_1_0_0_1_n_n.contr.Idx) : (dot_S5000x128_S128x1_S5000x1_1_0_0_1_n_n.rhsIdx i q 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

/-- A 5000 x 128 block times a 128 x 1 column, into zero: entry (p, z) is row p against the column. -/
theorem mmB_apply {φ₁ φ₂ : FTy} (x : FVec Ideal S5000x128 φ₁) (w : FVec Ideal S128x1 φ₂) (p : Fin 5000) (z : Fin 1) :
    matmul (F := Ideal) dot_S5000x128_S128x1_S5000x1_1_0_0_1_n_n none x w (constant (F := Ideal) S5000x1 .f32 0x00000000#32) (ix2 p z)
      = ∑ k : Fin 128, x (ix2 p k) * w (ix2 k z) := by
  refine (Ideal.matmul_constant_zero_apply dot_S5000x128_S128x1_S5000x1_1_0_0_1_n_n none x w (ix2 p z)).trans ?_
  rw [← Equiv.sum_comp (contrEquiv1 dot_S5000x128_S128x1_S5000x1_1_0_0_1_n_n 128 rfl rfl).symm]
  refine Finset.sum_congr rfl fun k _ => ?_
  have hk := contrEquiv1_symm_val dot_S5000x128_S128x1_S5000x1_1_0_0_1_n_n 128 rfl rfl k
  have el : dot_S5000x128_S128x1_S5000x1_1_0_0_1_n_n.lhsIdx (ix2 p z) ((contrEquiv1 dot_S5000x128_S128x1_S5000x1_1_0_0_1_n_n 128 rfl rfl).symm k) = ix2 p k := funext fun a => Fin.ext (by
    match a with
    | ⟨0, _⟩ => exact lhsB_0 _ _
    | ⟨1, _⟩ => exact (dot_S5000x128_S128x1_S5000x1_1_0_0_1_n_n.lhsIdx_val_of_single rfl _ _).trans hk)
  have er : dot_S5000x128_S128x1_S5000x1_1_0_0_1_n_n.rhsIdx (ix2 p z) ((contrEquiv1 dot_S5000x128_S128x1_S5000x1_1_0_0_1_n_n 128 rfl rfl).symm k) = ix2 k z := funext fun a => Fin.ext (by
    match a with
    | ⟨0, _⟩ => exact (dot_S5000x128_S128x1_S5000x1_1_0_0_1_n_n.rhsIdx_val_of_single rfl _ _).trans hk
    | ⟨1, _⟩ => exact rhsB_1 _ _)
  rw [el, er]

/-! ## The bias rows spread over a block -/

/-- A 1 x 128 row broadcast to 5000 rows: entry (p, q) is the row's entry q. -/
theorem rowA_apply (v : FVec Ideal S1x128 .f32) (p : Fin 5000) (q : Fin 128) :
    broadcastTo S5000x128 v broadcasts_S1x128_S5000x128 (ix2 p q) = v (ix2 0 q) :=
  broadcastTo_apply v broadcasts_S1x128_S5000x128 (ix2 p q) (ix2 0 q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-- A 1 x 1 entry broadcast to 5000 rows of one column. -/
theorem rowB_apply (v : FVec Ideal S1x1 .f32) (p : Fin 5000) (z : Fin 1) :
    broadcastTo S5000x1 v broadcasts_S1x1_S5000x1 (ix2 p z) = v (ix2 0 0) :=
  broadcastTo_apply v broadcasts_S1x1_S5000x1 (ix2 p z) (ix2 0 0) (fun a => match a with
    | ⟨0, _⟩ => by show (0 : Nat) = if (1 : Nat) = 1 then 0 else p.val; rw [if_pos rfl]
    | ⟨1, _⟩ => by show (0 : Nat) = if (1 : Nat) = 1 then 0 else z.val; rw [if_pos rfl])

/-! ## The bodies' results at an entry -/

/-- Region 0's body at entry (p, q) of its block. -/
theorem pay0_apply (x0 x1 : Vec Ideal S5000x128 .f32) (x2 x3 : Vec Ideal S128x128 .f32) (x4 : Vec Ideal S1x128 .f32)
    (p : Fin 5000) (q : Fin 128) :
    k0_pay1 (F := Ideal) x0 x1 x2 x3 x4 (ix2 p q)
      = max ((∑ k : Fin 128, x0 (ix2 p k) * x2 (ix2 k q)) + (∑ k : Fin 128, x1 (ix2 p k) * x3 (ix2 k q)) + x4 (ix2 0 q)) 0 := by
  unfold k0_pay1
  simp only [shapeCast_self]
  rw [maximumf_apply, addf_apply, addf_apply, mmA_apply, mmA_apply, rowA_apply, broadcast_apply]
  simp only [truncf_apply]
  exact congrArg (max _) Ideal.ofBits_zero_f32

/-- Region 1's body at entry (p, q) of its block. -/
theorem pay1_apply (x0 x1 : Vec Ideal S5000x128 .f32) (x2 x3 : Vec Ideal S128x128 .f32) (x4 : Vec Ideal S1x128 .f32)
    (p : Fin 5000) (q : Fin 128) :
    k1_pay1 (F := Ideal) x0 x1 x2 x3 x4 (ix2 p q)
      = max ((∑ k : Fin 128, x0 (ix2 p k) * x2 (ix2 k q)) + (∑ k : Fin 128, x1 (ix2 p k) * x3 (ix2 k q)) + x4 (ix2 0 q)) 0 := by
  unfold k1_pay1
  simp only [shapeCast_self]
  rw [maximumf_apply, addf_apply, addf_apply, mmA_apply, mmA_apply, rowA_apply, broadcast_apply]
  simp only [truncf_apply]
  exact congrArg (max _) Ideal.ofBits_zero_f32

/-- Region 2's body at entry (p, z) of its one-column block: the third layer's row p against the head's column,
    plus the head's bias. -/
theorem pay2_apply (x0 x1 : Vec Ideal S5000x128 .f32) (x2 x3 : Vec Ideal S128x128 .f32) (x4 : Vec Ideal S1x128 .f32)
    (x5 : Vec Ideal S128x1 .f32) (x6 : Vec Ideal S1x1 .f32) (p : Fin 5000) (z : Fin 1) :
    k2_pay1 (F := Ideal) x0 x1 x2 x3 x4 x5 x6 (ix2 p z)
      = (∑ j : Fin 128, max ((∑ k : Fin 128, x0 (ix2 p k) * x2 (ix2 k j)) + (∑ k : Fin 128, x1 (ix2 p k) * x3 (ix2 k j)) + x4 (ix2 0 j)) 0 * x5 (ix2 j z))
        + x6 (ix2 0 0) := by
  unfold k2_pay1
  simp only [shapeCast_self]
  rw [addf_apply, mmB_apply, rowB_apply]
  simp only [truncf_apply, maximumf_apply, addf_apply, mmA_apply, rowA_apply, broadcast_apply]
  have hz0 : (Scalar.ofBits (F := Ideal) .f32 0x00000000#32 : Ideal .f32) = (0 : EReal) := Ideal.ofBits_zero_f32
  simp only [hz0]

end Cert.KernelIdeal.Body

end
-- ==== Proof.Spec.lean ====
/-
  The network both programs compute, entry by entry, on the extended reals.

  A layer takes node features h and aggregated neighbour features hn (both 50000 x 128), two 128 x 128 weight
  matrices and a bias, and returns, at node p and feature q,
      max( <h_p, Ws_q> + <hn_p, Wn_q> + b_q , 0 )
  where <.,.> is the inner product of two rows of length 128. The output head is one more inner product per node
  plus a bias. The aggregation hn = agg h (gather the features along the edges' sources, sum them onto the edges'
  destinations, scale each row by the inverse in-degree) is the same host computation in both programs, so the
  network is stated over an arbitrary function agg of a feature array: nothing below looks inside it.

  The one law: a sum of three extended reals may be regrouped and reordered (the extended reals are a commutative
  additive monoid), so adding the bias before or after the neighbour term gives the same entry.
-/
import Idealize.ShloMosaic.PureOps.Ideal
import Idealize.ShloMosaic.PureOps.Ideal.Laws
import Idealize.ShloMosaic.Lib.ValueIdx

noncomputable section

open scoped BigOperators

namespace Cert.Sage

open Idealize.ShloMosaic Idealize.ShloMosaic.ValueIdx

/-- A matrix of extended reals with r rows and c columns, as a function of its index. -/
abbrev Arr2 (r c : Nat) := (⟨2, ![r, c]⟩ : Shape).Idx → EReal
/-- A vector of extended reals of length n. -/
abbrev Arr1 (n : Nat) := (⟨1, ![n]⟩ : Shape).Idx → EReal

/-- One entry of a layer, the bias added last: node p, output feature q. -/
def layerAt (h hn : Arr2 50000 128) (Ws Wn : Arr2 128 128) (b : Arr1 128) (p : Fin 50000) (q : Fin 128) : EReal :=
  max ((∑ k : Fin 128, h (ix2 p k) * Ws (ix2 q k)) + (∑ k : Fin 128, hn (ix2 p k) * Wn (ix2 q k)) + b (ix1 q)) 0

/-- The same entry with the bias added to the self term before the neighbour term. -/
def layerAt' (h hn : Arr2 50000 128) (Ws Wn : Arr2 128 128) (b : Arr1 128) (p : Fin 50000) (q : Fin 128) : EReal :=
  max ((∑ k : Fin 128, h (ix2 p k) * Ws (ix2 q k)) + b (ix1 q) + (∑ k : Fin 128, hn (ix2 p k) * Wn (ix2 q k))) 0

/-- The two groupings of the three terms agree: addition of extended reals is commutative and associative. -/
theorem layerAt'_eq (h hn : Arr2 50000 128) (Ws Wn : Arr2 128 128) (b : Arr1 128) (p : Fin 50000) (q : Fin 128) :
    layerAt' h hn Ws Wn b p q = layerAt h hn Ws Wn b p q := by
  unfold layerAt' layerAt
  rw [add_right_comm]

/-- A layer as an array. -/
def layer (h hn : Arr2 50000 128) (Ws Wn : Arr2 128 128) (b : Arr1 128) : Arr2 50000 128 :=
  fun i => layerAt h hn Ws Wn b ⟨(i 0).val, idx2_lt0 i⟩ ⟨(i 1).val, idx2_lt1 i⟩

theorem layer_ix2 (h hn : Arr2 50000 128) (Ws Wn : Arr2 128 128) (b : Arr1 128) (p : Fin 50000) (q : Fin 128) :
    layer h hn Ws Wn b (ix2 p q) = layerAt h hn Ws Wn b p q := rfl

/-- One entry of the output head: node p. -/
def headAt (h : Arr2 50000 128) (fw : Arr2 1 128) (fb : Arr1 1) (p : Fin 50000) : EReal :=
  (∑ k : Fin 128, h (ix2 p k) * fw (ix2 0 k)) + fb (ix1 0)

/-- The output head as an array with one column. -/
def head (h : Arr2 50000 128) (fw : Arr2 1 128) (fb : Arr1 1) : Arr2 50000 1 :=
  fun i => headAt h fw fb ⟨(i 0).val, idx2_lt0 i⟩

theorem head_ix2 (h : Arr2 50000 128) (fw : Arr2 1 128) (fb : Arr1 1) (p : Fin 50000) (z : Fin 1) :
    head h fw fb (ix2 p z) = headAt h fw fb p := rfl

/-- The last region's work: a third layer, then the head. -/
def lastLayer (h hn : Arr2 50000 128) (Ws Wn : Arr2 128 128) (b : Arr1 128) (fw : Arr2 1 128) (fb : Arr1 1) : Arr2 50000 1 :=
  head (layer h hn Ws Wn b) fw fb

/-- The whole network over an aggregation agg. -/
def net (agg : Arr2 50000 128 → Arr2 50000 128) (x : Arr2 50000 128)
    (Ws0 Wn0 : Arr2 128 128) (b0 : Arr1 128) (Ws1 Wn1 : Arr2 128 128) (b1 : Arr1 128)
    (Ws2 Wn2 : Arr2 128 128) (b2 : Arr1 128) (fw : Arr2 1 128) (fb : Arr1 1) : Arr2 50000 1 :=
  lastLayer (layer (layer x (agg x) Ws0 Wn0 b0) (agg (layer x (agg x) Ws0 Wn0 b0)) Ws1 Wn1 b1)
    (agg (layer (layer x (agg x) Ws0 Wn0 b0) (agg (layer x (agg x) Ws0 Wn0 b0)) Ws1 Wn1 b1)) Ws2 Wn2 b2 fw fb

/-! ## The same, over the arrays as a region is handed them

A region receives the weight matrices already transposed (entry (k, q) of the staged matrix is entry (q, k) of the
weight matrix), the bias as a 1 x 128 row, the head's weights as a 128 x 1 column and its bias as a 1 x 1 array. -/

/-- One entry of a layer over staged operands. -/
def stagedLayerAt (h hn : Arr2 50000 128) (A B : Arr2 128 128) (r : Arr2 1 128) (p : Fin 50000) (q : Fin 128) : EReal :=
  max ((∑ k : Fin 128, h (ix2 p k) * A (ix2 k q)) + (∑ k : Fin 128, hn (ix2 p k) * B (ix2 k q)) + r (ix2 0 q)) 0

/-- A layer over staged operands, as an array. -/
def stagedLayer (h hn : Arr2 50000 128) (A B : Arr2 128 128) (r : Arr2 1 128) : Arr2 50000 128 :=
  fun i => stagedLayerAt h hn A B r ⟨(i 0).val, idx2_lt0 i⟩ ⟨(i 1).val, idx2_lt1 i⟩

theorem stagedLayer_ix2 (h hn : Arr2 50000 128) (A B : Arr2 128 128) (r : Arr2 1 128) (p : Fin 50000) (q : Fin 128) :
    stagedLayer h hn A B r (ix2 p q) = stagedLayerAt h hn A B r p q := rfl

/-- With the staged operands read back to the weights and the bias, a staged layer is the layer. -/
theorem stagedLayer_eq (h hn : Arr2 50000 128) (A B Ws Wn : Arr2 128 128) (r : Arr2 1 128) (b : Arr1 128)
    (hA : ∀ k q : Fin 128, A (ix2 k q) = Ws (ix2 q k)) (hB : ∀ k q : Fin 128, B (ix2 k q) = Wn (ix2 q k))
    (hr : ∀ q : Fin 128, r (ix2 0 q) = b (ix1 q)) :
    stagedLayer h hn A B r = layer h hn Ws Wn b := by
  funext i
  unfold stagedLayer layer stagedLayerAt layerAt
  simp only [hA, hB, hr]

/-- One entry of the last region's result over staged operands: the third layer's row against the head's column. -/
def stagedLastAt (h hn : Arr2 50000 128) (A B : Arr2 128 128) (r : Arr2 1 128) (fc : Arr2 128 1) (fr : Arr2 1 1)
    (p : Fin 50000) : EReal :=
  (∑ k : Fin 128, stagedLayerAt h hn A B r p k * fc (ix2 k 0)) + fr (ix2 0 0)

/-- The last region's result over staged operands, as an array with one column. -/
def stagedLast (h hn : Arr2 50000 128) (A B : Arr2 128 128) (r : Arr2 1 128) (fc : Arr2 128 1) (fr : Arr2 1 1) : Arr2 50000 1 :=
  fun i => stagedLastAt h hn A B r fc fr ⟨(i 0).val, idx2_lt0 i⟩

theorem stagedLast_ix2 (h hn : Arr2 50000 128) (A B : Arr2 128 128) (r : Arr2 1 128) (fc : Arr2 128 1) (fr : Arr2 1 1)
    (p : Fin 50000) (z : Fin 1) : stagedLast h hn A B r fc fr (ix2 p z) = stagedLastAt h hn A B r fc fr p := rfl

/-- With the staged operands read back, the last region's result is the third layer followed by the head. -/
theorem stagedLast_eq (h hn : Arr2 50000 128) (A B Ws Wn : Arr2 128 128) (r : Arr2 1 128) (b : Arr1 128)
    (fc : Arr2 128 1) (fw : Arr2 1 128) (fr : Arr2 1 1) (fb : Arr1 1)
    (hA : ∀ k q : Fin 128, A (ix2 k q) = Ws (ix2 q k)) (hB : ∀ k q : Fin 128, B (ix2 k q) = Wn (ix2 q k))
    (hr : ∀ q : Fin 128, r (ix2 0 q) = b (ix1 q)) (hc : ∀ k : Fin 128, fc (ix2 k 0) = fw (ix2 0 k))
    (hf : fr (ix2 0 0) = fb (ix1 0)) :
    stagedLast h hn A B r fc fr = lastLayer h hn Ws Wn b fw fb := by
  funext i
  unfold stagedLast lastLayer head stagedLastAt headAt layer stagedLayerAt layerAt
  simp only [hA, hB, hr, hc, hf]

end Cert.Sage

end
-- ==== Proof.Region0.lean ====
/-
  What region 0 leaves in its output array, as one function of the arrays it is entered with.

  The grid has ten points; point t is handed rows 5000 t .. 5000 t + 4999 of the feature array and of the aggregated
  neighbour array (all 128 columns), the two staged weight matrices, the bias row, and writes back rows
  5000 t .. 5000 t + 4999 of the output. Each written entry (5000 t + p, q) is the body's entry (p, q) of the
  blocks, which is the staged layer's entry at that row and column. The ten row blocks tile the 50000 rows (row i
  lies in block i / 5000), so after the last point the whole output array is the staged layer of the entry arrays.
-/
import proofs.«132443_j46265387712895_1_alg».proof.Proof.Gen.KernelIdeal.Frame
import proofs.«132443_j46265387712895_1_alg».proof.Proof.Body
import proofs.«132443_j46265387712895_1_alg».proof.Proof.Spec

set_option maxRecDepth 16384

noncomputable section

open scoped BigOperators

namespace Cert.KernelIdeal.Region0

open Cert.KernelIdeal Cert.KernelIdeal.Gen Cert.KernelIdeal.Body Cert.Sage
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The windows' block indices over the grid: the node windows move down one row block per point, the weights and
    the bias stay put. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Each input block as entries of its array -/

/-- The feature block at point t is rows 5000 t .. of the feature array. -/
theorem blk_h (c : Dev nD) (t : Fin cfg0.N) (x : S5000x128.Idx) (k : S50000x128.Idx)
    (hk0 : (k 0).val = 5000 * t.val + (x 0).val) (hk1 : (k 1).val = (x 1).val) :
    (iblk0 V c 0 t : Vec Ideal S5000x128 .f32) x = (V c main_arg0 : S50000x128.Idx → EReal) k := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- The neighbour block at point t is rows 5000 t .. of the aggregated array. -/
theorem blk_hn (c : Dev nD) (t : Fin cfg0.N) (x : S5000x128.Idx) (k : S50000x128.Idx)
    (hk0 : (k 0).val = 5000 * t.val + (x 0).val) (hk1 : (k 1).val = (x 1).val) :
    (iblk0 V c 1 t : Vec Ideal S5000x128 .f32) x = (V c main_v20 : S50000x128.Idx → EReal) k := by
  obtain ⟨-, -, e0, e1, -⟩ := idx_facts t
  unfold iblk0
  rw [View.read_apply]
  show V c main_v20 _ = V c main_v20 _
  congr 1
  funext a
  apply Fin.ext
  match a with
  | ⟨0, _⟩ => show win0_1.index t 0 * 5000 + 1 * (x 0).val = (k 0).val; rw [e0, hk0]; omega
  | ⟨1, _⟩ => show win0_1.index t 1 * 128 + 1 * (x 1).val = (k 1).val; rw [e1, hk1]; omega

/-- The first weight block is the whole staged matrix, at every point. -/
theorem blk_A (c : Dev nD) (t : Fin cfg0.N) (x : S128x128.Idx) :
    (iblk0 V c 2 t : Vec Ideal S128x128 .f32) x = (V c main_v21 : S128x128.Idx → EReal) x := by
  obtain ⟨-, -, -, -, e0, e1, -⟩ := idx_facts t
  unfold iblk0
  rw [View.read_apply]
  show V c main_v21 _ = V c main_v21 _
  congr 1
  funext a
  apply Fin.ext
  match a with
  | ⟨0, _⟩ => show win0_2.index t 0 * 128 + 1 * (x 0).val = (x 0).val; rw [e0]; omega
  | ⟨1, _⟩ => show win0_2.index t 1 * 128 + 1 * (x 1).val = (x 1).val; rw [e1]; omega

/-- The second weight block is the whole staged matrix, at every point. -/
theorem blk_B (c : Dev nD) (t : Fin cfg0.N) (x : S128x128.Idx) :
    (iblk0 V c 3 t : Vec Ideal S128x128 .f32) x = (V c main_v22 : S128x128.Idx → EReal) x := by
  obtain ⟨-, -, -, -, -, -, e0, e1, -⟩ := idx_facts t
  unfold iblk0
  rw [View.read_apply]
  show V c main_v22 _ = V c main_v22 _
  congr 1
  funext a
  apply Fin.ext
  match a with
  | ⟨0, _⟩ => show win0_3.index t 0 * 128 + 1 * (x 0).val = (x 0).val; rw [e0]; omega
  | ⟨1, _⟩ => show win0_3.index t 1 * 128 + 1 * (x 1).val = (x 1).val; rw [e1]; omega

/-- The bias block is the whole bias row, at every point. -/
theorem blk_r (c : Dev nD) (t : Fin cfg0.N) (x : S1x128.Idx) :
    (iblk0 V c 4 t : Vec Ideal S1x128 .f32) x = (V c main_v23 : S1x128.Idx → EReal) x := by
  obtain ⟨-, -, -, -, -, -, -, -, e0, e1, -⟩ := idx_facts t
  unfold iblk0
  rw [View.read_apply]
  show V c main_v23 _ = V c main_v23 _
  congr 1
  funext a
  apply Fin.ext
  match a with
  | ⟨0, _⟩ => show win0_4.index t 0 * 1 + 1 * (x 0).val = (x 0).val; rw [e0]; omega
  | ⟨1, _⟩ => show win0_4.index t 1 * 128 + 1 * (x 1).val = (x 1).val; rw [e1]; omega

/-! ## What a point writes back, and the array after the last point -/

/-- The staged layer of the arrays the region is entered with. -/
def G (c : Dev nD) : S50000x128.Idx → EReal :=
  stagedLayer (V c main_arg0) (V c main_v20) (V c main_v21) (V c main_v22) (V c main_v23)

/-- Point t writes back block t of the staged layer. -/
theorem flushed_eq (c : Dev nD) (t : Fin cfg0.N) :
    (dat0 V c).flushed 5 t = ((cfg0.win 5).blk t).view.read (Elt Ideal) (G V c) := by
  have ht : t.val < 10 := N_0 ▸ t.isLt
  obtain ⟨-, -, -, -, -, -, -, -, -, -, e0, e1⟩ := idx_facts t
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have hp : 5000 * t.val + p.val < 50000 := by have := p.isLt; omega
  have hi : ((cfg0.win 5).blk t).view.emb (ix2 p q) = ix2 (⟨5000 * t.val + p.val, hp⟩ : Fin 50000) q := by
    funext a
    apply Fin.ext
    match a with
    | ⟨0, _⟩ => show win0_5.index t 0 * 5000 + 1 * p.val = 5000 * t.val + p.val; rw [e0]; omega
    | ⟨1, _⟩ => show win0_5.index t 1 * 128 + 1 * q.val = q.val; rw [e1]; omega
  show k0_pay1 (F := Ideal) (iblk0 V c 0 t) (iblk0 V c 1 t) (iblk0 V c 2 t) (iblk0 V c 3 t) (iblk0 V c 4 t) (ix2 p q)
      = G V c (((cfg0.win 5).blk t).view.emb (ix2 p q))
  rw [hi]
  refine (pay0_apply (iblk0 V c 0 t) (iblk0 V c 1 t) (iblk0 V c 2 t) (iblk0 V c 3 t) (iblk0 V c 4 t) p q).trans ?_
  unfold G
  rw [stagedLayer_ix2]
  unfold stagedLayerAt
  have s0 : ∀ k : Fin 128, (iblk0 V c 0 t : Vec Ideal S5000x128 .f32) (ix2 p k) = (V c main_arg0 : S50000x128.Idx → EReal) (ix2 (⟨5000 * t.val + p.val, hp⟩ : Fin 50000) k) :=
    fun k => blk_h V c t (ix2 p k) (ix2 (⟨5000 * t.val + p.val, hp⟩ : Fin 50000) k) rfl rfl
  have s1 : ∀ k : Fin 128, (iblk0 V c 1 t : Vec Ideal S5000x128 .f32) (ix2 p k) = (V c main_v20 : S50000x128.Idx → EReal) (ix2 (⟨5000 * t.val + p.val, hp⟩ : Fin 50000) k) :=
    fun k => blk_hn V c t (ix2 p k) (ix2 (⟨5000 * t.val + p.val, hp⟩ : Fin 50000) k) rfl rfl
  simp only [s0, s1, blk_A V c t, blk_B V c t, blk_r V c t]

/-- An index of the output array lies in point t's block iff each coordinate lies in the block's range. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v24).slice (win0_5.rect t)).set ↔ _
  rw [View.set_slice_whole, Rect.mem_set_unit]
  exact Iff.rfl

/-- After the last point the output array is the staged layer of the entry arrays: the row blocks tile it. -/
theorem final (c : Dev nD) : (dat0 V c).arrAt 5 cfg0.N = G V c :=
  (dat0 V c).arrAt_eq_of_cover 5 (G V c) (fun t _ => flushed_eq V c t) fun i => by
    have hi0 : (i 0).val < 50000 := (i 0).isLt
    have hi1 : (i 1).val < 128 := (i 1).isLt
    have hT : (i 0).val / 5000 < cfg0.N := by rw [show cfg0.N = 10 from N_0]; omega
    obtain ⟨-, -, -, -, -, -, -, -, -, -, e0, e1⟩ := idx_facts ⟨(i 0).val / 5000, hT⟩
    refine ⟨⟨(i 0).val / 5000, hT⟩, flush0_5 _, ?_⟩
    rw [mem_blk]
    intro a
    match a with
    | ⟨0, _⟩ => show win0_5.index ⟨(i 0).val / 5000, hT⟩ 0 * 5000 ≤ (i 0).val ∧ (i 0).val < win0_5.index ⟨(i 0).val / 5000, hT⟩ 0 * 5000 + 5000; rw [e0]; show (i 0).val / 5000 * 5000 ≤ (i 0).val ∧ (i 0).val < (i 0).val / 5000 * 5000 + 5000; omega
    | ⟨1, _⟩ => show win0_5.index ⟨(i 0).val / 5000, hT⟩ 1 * 128 ≤ (i 1).val ∧ (i 1).val < win0_5.index ⟨(i 0).val / 5000, hT⟩ 1 * 128 + 128; rw [e1]; omega

end Cert.KernelIdeal.Region0

end
-- ==== Proof.Region1.lean ====
/-
  What region 1 leaves in its output array, as one function of the arrays it is entered with.

  The grid has ten points; point t is handed rows 5000 t .. 5000 t + 4999 of the feature array and of the aggregated
  neighbour array (all 128 columns), the two staged weight matrices, the bias row, and writes back rows
  5000 t .. 5000 t + 4999 of the output. Each written entry (5000 t + p, q) is the body's entry (p, q) of the
  blocks, which is the staged layer's entry at that row and column. The ten row blocks tile the 50000 rows (row i
  lies in block i / 5000), so after the last point the whole output array is the staged layer of the entry arrays.
-/
import proofs.«132443_j46265387712895_1_alg».proof.Proof.Gen.KernelIdeal.Frame
import proofs.«132443_j46265387712895_1_alg».proof.Proof.Body
import proofs.«132443_j46265387712895_1_alg».proof.Proof.Spec

set_option maxRecDepth 16384

noncomputable section

open scoped BigOperators

namespace Cert.KernelIdeal.Region1

open Cert.KernelIdeal Cert.KernelIdeal.Gen Cert.KernelIdeal.Body Cert.Sage
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The windows' block indices over the grid: the node windows move down one row block per point, the weights and
    the bias stay put. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## Each input block as entries of its array -/

/-- The feature block at point t is rows 5000 t .. of the feature array. -/
theorem blk_h (c : Dev nD) (t : Fin cfg1.N) (x : S5000x128.Idx) (k : S50000x128.Idx)
    (hk0 : (k 0).val = 5000 * t.val + (x 0).val) (hk1 : (k 1).val = (x 1).val) :
    (iblk1 V c 0 t : Vec Ideal S5000x128 .f32) x = (V c main_v24 : S50000x128.Idx → EReal) k := by
  obtain ⟨e0, e1, -⟩ := idx_facts t
  unfold iblk1
  rw [View.read_apply]
  show V c main_v24 _ = V c main_v24 _
  congr 1
  funext a
  apply Fin.ext
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-- The neighbour block at point t is rows 5000 t .. of the aggregated array. -/
theorem blk_hn (c : Dev nD) (t : Fin cfg1.N) (x : S5000x128.Idx) (k : S50000x128.Idx)
    (hk0 : (k 0).val = 5000 * t.val + (x 0).val) (hk1 : (k 1).val = (x 1).val) :
    (iblk1 V c 1 t : Vec Ideal S5000x128 .f32) x = (V c main_v36 : S50000x128.Idx → EReal) k := by
  obtain ⟨-, -, e0, e1, -⟩ := idx_facts t
  unfold iblk1
  rw [View.read_apply]
  show V c main_v36 _ = V c main_v36 _
  congr 1
  funext a
  apply Fin.ext
  match a with
  | ⟨0, _⟩ => show win1_1.index t 0 * 5000 + 1 * (x 0).val = (k 0).val; rw [e0, hk0]; omega
  | ⟨1, _⟩ => show win1_1.index t 1 * 128 + 1 * (x 1).val = (k 1).val; rw [e1, hk1]; omega

/-- The first weight block is the whole staged matrix, at every point. -/
theorem blk_A (c : Dev nD) (t : Fin cfg1.N) (x : S128x128.Idx) :
    (iblk1 V c 2 t : Vec Ideal S128x128 .f32) x = (V c main_v37 : S128x128.Idx → EReal) x := by
  obtain ⟨-, -, -, -, e0, e1, -⟩ := idx_facts t
  unfold iblk1
  rw [View.read_apply]
  show V c main_v37 _ = V c main_v37 _
  congr 1
  funext a
  apply Fin.ext
  match a with
  | ⟨0, _⟩ => show win1_2.index t 0 * 128 + 1 * (x 0).val = (x 0).val; rw [e0]; omega
  | ⟨1, _⟩ => show win1_2.index t 1 * 128 + 1 * (x 1).val = (x 1).val; rw [e1]; omega

/-- The second weight block is the whole staged matrix, at every point. -/
theorem blk_B (c : Dev nD) (t : Fin cfg1.N) (x : S128x128.Idx) :
    (iblk1 V c 3 t : Vec Ideal S128x128 .f32) x = (V c main_v38 : S128x128.Idx → EReal) x := by
  obtain ⟨-, -, -, -, -, -, e0, e1, -⟩ := idx_facts t
  unfold iblk1
  rw [View.read_apply]
  show V c main_v38 _ = V c main_v38 _
  congr 1
  funext a
  apply Fin.ext
  match a with
  | ⟨0, _⟩ => show win1_3.index t 0 * 128 + 1 * (x 0).val = (x 0).val; rw [e0]; omega
  | ⟨1, _⟩ => show win1_3.index t 1 * 128 + 1 * (x 1).val = (x 1).val; rw [e1]; omega

/-- The bias block is the whole bias row, at every point. -/
theorem blk_r (c : Dev nD) (t : Fin cfg1.N) (x : S1x128.Idx) :
    (iblk1 V c 4 t : Vec Ideal S1x128 .f32) x = (V c main_v39 : S1x128.Idx → EReal) x := by
  obtain ⟨-, -, -, -, -, -, -, -, e0, e1, -⟩ := idx_facts t
  unfold iblk1
  rw [View.read_apply]
  show V c main_v39 _ = V c main_v39 _
  congr 1
  funext a
  apply Fin.ext
  match a with
  | ⟨0, _⟩ => show win1_4.index t 0 * 1 + 1 * (x 0).val = (x 0).val; rw [e0]; omega
  | ⟨1, _⟩ => show win1_4.index t 1 * 128 + 1 * (x 1).val = (x 1).val; rw [e1]; omega

/-! ## What a point writes back, and the array after the last point -/

/-- The staged layer of the arrays the region is entered with. -/
def G (c : Dev nD) : S50000x128.Idx → EReal :=
  stagedLayer (V c main_v24) (V c main_v36) (V c main_v37) (V c main_v38) (V c main_v39)

/-- Point t writes back block t of the staged layer. -/
theorem flushed_eq (c : Dev nD) (t : Fin cfg1.N) :
    (dat1 V c).flushed 5 t = ((cfg1.win 5).blk t).view.read (Elt Ideal) (G V c) := by
  have ht : t.val < 10 := N_1 ▸ t.isLt
  obtain ⟨-, -, -, -, -, -, -, -, -, -, e0, e1⟩ := idx_facts t
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have hp : 5000 * t.val + p.val < 50000 := by have := p.isLt; omega
  have hi : ((cfg1.win 5).blk t).view.emb (ix2 p q) = ix2 (⟨5000 * t.val + p.val, hp⟩ : Fin 50000) q := by
    funext a
    apply Fin.ext
    match a with
    | ⟨0, _⟩ => show win1_5.index t 0 * 5000 + 1 * p.val = 5000 * t.val + p.val; rw [e0]; omega
    | ⟨1, _⟩ => show win1_5.index t 1 * 128 + 1 * q.val = q.val; rw [e1]; omega
  show k1_pay1 (F := Ideal) (iblk1 V c 0 t) (iblk1 V c 1 t) (iblk1 V c 2 t) (iblk1 V c 3 t) (iblk1 V c 4 t) (ix2 p q)
      = G V c (((cfg1.win 5).blk t).view.emb (ix2 p q))
  rw [hi]
  refine (pay1_apply (iblk1 V c 0 t) (iblk1 V c 1 t) (iblk1 V c 2 t) (iblk1 V c 3 t) (iblk1 V c 4 t) p q).trans ?_
  unfold G
  rw [stagedLayer_ix2]
  unfold stagedLayerAt
  have s0 : ∀ k : Fin 128, (iblk1 V c 0 t : Vec Ideal S5000x128 .f32) (ix2 p k) = (V c main_v24 : S50000x128.Idx → EReal) (ix2 (⟨5000 * t.val + p.val, hp⟩ : Fin 50000) k) :=
    fun k => blk_h V c t (ix2 p k) (ix2 (⟨5000 * t.val + p.val, hp⟩ : Fin 50000) k) rfl rfl
  have s1 : ∀ k : Fin 128, (iblk1 V c 1 t : Vec Ideal S5000x128 .f32) (ix2 p k) = (V c main_v36 : S50000x128.Idx → EReal) (ix2 (⟨5000 * t.val + p.val, hp⟩ : Fin 50000) k) :=
    fun k => blk_hn V c t (ix2 p k) (ix2 (⟨5000 * t.val + p.val, hp⟩ : Fin 50000) k) rfl rfl
  simp only [s0, s1, blk_A V c t, blk_B V c t, blk_r V c t]

/-- An index of the output array lies in point t's block iff each coordinate lies in the block's range. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v40).slice (win1_5.rect t)).set ↔ _
  rw [View.set_slice_whole, Rect.mem_set_unit]
  exact Iff.rfl

/-- After the last point the output array is the staged layer of the entry arrays: the row blocks tile it. -/
theorem final (c : Dev nD) : (dat1 V c).arrAt 5 cfg1.N = G V c :=
  (dat1 V c).arrAt_eq_of_cover 5 (G V c) (fun t _ => flushed_eq V c t) fun i => by
    have hi0 : (i 0).val < 50000 := (i 0).isLt
    have hi1 : (i 1).val < 128 := (i 1).isLt
    have hT : (i 0).val / 5000 < cfg1.N := by rw [show cfg1.N = 10 from N_1]; omega
    obtain ⟨-, -, -, -, -, -, -, -, -, -, e0, e1⟩ := idx_facts ⟨(i 0).val / 5000, hT⟩
    refine ⟨⟨(i 0).val / 5000, hT⟩, flush1_5 _, ?_⟩
    rw [mem_blk]
    intro a
    match a with
    | ⟨0, _⟩ => show win1_5.index ⟨(i 0).val / 5000, hT⟩ 0 * 5000 ≤ (i 0).val ∧ (i 0).val < win1_5.index ⟨(i 0).val / 5000, hT⟩ 0 * 5000 + 5000; rw [e0]; show (i 0).val / 5000 * 5000 ≤ (i 0).val ∧ (i 0).val < (i 0).val / 5000 * 5000 + 5000; omega
    | ⟨1, _⟩ => show win1_5.index ⟨(i 0).val / 5000, hT⟩ 1 * 128 ≤ (i 1).val ∧ (i 1).val < win1_5.index ⟨(i 0).val / 5000, hT⟩ 1 * 128 + 128; rw [e1]; omega

end Cert.KernelIdeal.Region1

end
-- ==== Proof.Region2.lean ====
/-
  What the last region leaves in the result array, as one function of the arrays it is entered with.

  The grid has ten points; point t is handed rows 5000 t .. 5000 t + 4999 of the feature array and of the aggregated
  neighbour array, the two staged weight matrices, the bias row, the head's weight column and its 1 x 1 bias, and
  writes back rows 5000 t .. 5000 t + 4999 of the one-column result. Each written entry (5000 t + p, 0) is the
  third layer's row against the head's column plus the head's bias. The ten row blocks tile the 50000 rows, so
  after the last point the whole result array is that function of the entry arrays.
-/
import proofs.«132443_j46265387712895_1_alg».proof.Proof.Gen.KernelIdeal.Frame
import proofs.«132443_j46265387712895_1_alg».proof.Proof.Body
import proofs.«132443_j46265387712895_1_alg».proof.Proof.Spec

set_option maxRecDepth 16384

noncomputable section

open scoped BigOperators

namespace Cert.KernelIdeal.Region2

open Cert.KernelIdeal Cert.KernelIdeal.Gen Cert.KernelIdeal.Body Cert.Sage
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The windows' block indices over the grid: the node windows and the result move down one row block per point,
    everything else stays put. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 ∧ True :=
  (by decide +kernel : ∀ t : Fin grid2.N, _)

/-! ## Each input block as entries of its array -/

/-- The feature block at point t is rows 5000 t .. of the feature array. -/
theorem blk_h (c : Dev nD) (t : Fin cfg2.N) (x : S5000x128.Idx) (k : S50000x128.Idx)
    (hk0 : (k 0).val = 5000 * t.val + (x 0).val) (hk1 : (k 1).val = (x 1).val) :
    (iblk2 V c 0 t : Vec Ideal S5000x128 .f32) x = (V c main_v40 : S50000x128.Idx → EReal) k := by
  obtain ⟨e0, e1, -⟩ := idx_facts t
  unfold iblk2
  rw [View.read_apply]
  show V c main_v40 _ = V c main_v40 _
  congr 1
  funext a
  apply Fin.ext
  match a with
  | ⟨0, _⟩ => show win2_0.index t 0 * 5000 + 1 * (x 0).val = (k 0).val; rw [e0, hk0]; omega
  | ⟨1, _⟩ => show win2_0.index t 1 * 128 + 1 * (x 1).val = (k 1).val; rw [e1, hk1]; omega

/-- The neighbour block at point t is rows 5000 t .. of the aggregated array. -/
theorem blk_hn (c : Dev nD) (t : Fin cfg2.N) (x : S5000x128.Idx) (k : S50000x128.Idx)
    (hk0 : (k 0).val = 5000 * t.val + (x 0).val) (hk1 : (k 1).val = (x 1).val) :
    (iblk2 V c 1 t : Vec Ideal S5000x128 .f32) x = (V c main_v52 : S50000x128.Idx → EReal) k := by
  obtain ⟨-, -, e0, e1, -⟩ := idx_facts t
  unfold iblk2
  rw [View.read_apply]
  show V c main_v52 _ = V c main_v52 _
  congr 1
  funext a
  apply Fin.ext
  match a with
  | ⟨0, _⟩ => show win2_1.index t 0 * 5000 + 1 * (x 0).val = (k 0).val; rw [e0, hk0]; omega
  | ⟨1, _⟩ => show win2_1.index t 1 * 128 + 1 * (x 1).val = (k 1).val; rw [e1, hk1]; omega

/-- The first weight block is the whole staged matrix, at every point. -/
theorem blk_A (c : Dev nD) (t : Fin cfg2.N) (x : S128x128.Idx) :
    (iblk2 V c 2 t : Vec Ideal S128x128 .f32) x = (V c main_v53 : S128x128.Idx → EReal) x := by
  obtain ⟨-, -, -, -, e0, e1, -⟩ := idx_facts t
  unfold iblk2
  rw [View.read_apply]
  show V c main_v53 _ = V c main_v53 _
  congr 1
  funext a
  apply Fin.ext
  match a with
  | ⟨0, _⟩ => show win2_2.index t 0 * 128 + 1 * (x 0).val = (x 0).val; rw [e0]; omega
  | ⟨1, _⟩ => show win2_2.index t 1 * 128 + 1 * (x 1).val = (x 1).val; rw [e1]; omega

/-- The second weight block is the whole staged matrix, at every point. -/
theorem blk_B (c : Dev nD) (t : Fin cfg2.N) (x : S128x128.Idx) :
    (iblk2 V c 3 t : Vec Ideal S128x128 .f32) x = (V c main_v54 : S128x128.Idx → EReal) x := by
  obtain ⟨-, -, -, -, -, -, e0, e1, -⟩ := idx_facts t
  unfold iblk2
  rw [View.read_apply]
  show V c main_v54 _ = V c main_v54 _
  congr 1
  funext a
  apply Fin.ext
  match a with
  | ⟨0, _⟩ => show win2_3.index t 0 * 128 + 1 * (x 0).val = (x 0).val; rw [e0]; omega
  | ⟨1, _⟩ => show win2_3.index t 1 * 128 + 1 * (x 1).val = (x 1).val; rw [e1]; omega

/-- The bias block is the whole bias row, at every point. -/
theorem blk_r (c : Dev nD) (t : Fin cfg2.N) (x : S1x128.Idx) :
    (iblk2 V c 4 t : Vec Ideal S1x128 .f32) x = (V c main_v55 : S1x128.Idx → EReal) x := by
  obtain ⟨-, -, -, -, -, -, -, -, e0, e1, -⟩ := idx_facts t
  unfold iblk2
  rw [View.read_apply]
  show V c main_v55 _ = V c main_v55 _
  congr 1
  funext a
  apply Fin.ext
  match a with
  | ⟨0, _⟩ => show win2_4.index t 0 * 1 + 1 * (x 0).val = (x 0).val; rw [e0]; omega
  | ⟨1, _⟩ => show win2_4.index t 1 * 128 + 1 * (x 1).val = (x 1).val; rw [e1]; omega

/-- The head's weight block is its whole column, at every point. -/
theorem blk_fc (c : Dev nD) (t : Fin cfg2.N) (x : S128x1.Idx) :
    (iblk2 V c 5 t : Vec Ideal S128x1 .f32) x = (V c main_v56 : S128x1.Idx → EReal) x := by
  obtain ⟨-, -, -, -, -, -, -, -, -, -, e0, e1, -⟩ := idx_facts t
  unfold iblk2
  rw [View.read_apply]
  show V c main_v56 _ = V c main_v56 _
  congr 1
  funext a
  apply Fin.ext
  match a with
  | ⟨0, _⟩ => show win2_5.index t 0 * 128 + 1 * (x 0).val = (x 0).val; rw [e0]; omega
  | ⟨1, _⟩ => show win2_5.index t 1 * 1 + 1 * (x 1).val = (x 1).val; rw [e1]; omega

/-- The head's bias block is its one entry, at every point. -/
theorem blk_fr (c : Dev nD) (t : Fin cfg2.N) (x : S1x1.Idx) :
    (iblk2 V c 6 t : Vec Ideal S1x1 .f32) x = (V c main_v57 : S1x1.Idx → EReal) x := by
  obtain ⟨-, -, -, -, -, -, -, -, -, -, -, -, e0, e1, -⟩ := idx_facts t
  unfold iblk2
  rw [View.read_apply]
  show V c main_v57 _ = V c main_v57 _
  congr 1
  funext a
  apply Fin.ext
  match a with
  | ⟨0, _⟩ => show win2_6.index t 0 * 1 + 1 * (x 0).val = (x 0).val; rw [e0]; omega
  | ⟨1, _⟩ => show win2_6.index t 1 * 1 + 1 * (x 1).val = (x 1).val; rw [e1]; omega

/-! ## What a point writes back, and the array after the last point -/

/-- The third layer followed by the head, over the arrays the region is entered with. -/
def G (c : Dev nD) : S50000x1.Idx → EReal :=
  stagedLast (V c main_v40) (V c main_v52) (V c main_v53) (V c main_v54) (V c main_v55) (V c main_v56) (V c main_v57)

/-- Point t writes back block t of that function. -/
theorem flushed_eq (c : Dev nD) (t : Fin cfg2.N) :
    (dat2 V c).flushed 7 t = ((cfg2.win 7).blk t).view.read (Elt Ideal) (G V c) := by
  have ht : t.val < 10 := N_2 ▸ t.isLt
  obtain ⟨-, -, -, -, -, -, -, -, -, -, -, -, -, -, e0, e1, -⟩ := idx_facts t
  show (cfg2.win 7).cut (grid2.coords t) ((dat2 V c).after 7 t) = _
  rw [after2_7]
  unfold out2_7
  rw [View.canon_unit_zero hz]
  simp only [View.ld_unit_zero (S := S5000x128) hz, View.ld_unit_zero (S := S128x128) hz, View.ld_unit_zero (S := S1x128) hz,
    View.ld_unit_zero (S := S128x1) hz, View.ld_unit_zero (S := S1x1) hz]
  funext j
  obtain ⟨p, z, rfl⟩ : ∃ (p : Fin 5000) (z : Fin 1), j = ix2 p z := ⟨j 0, j 1, eq_ix2 j⟩
  obtain rfl : z = 0 := Subsingleton.elim _ _
  have hp : 5000 * t.val + p.val < 50000 := by have := p.isLt; omega
  have hi : ((cfg2.win 7).blk t).view.emb (ix2 p (0 : Fin 1)) = ix2 (⟨5000 * t.val + p.val, hp⟩ : Fin 50000) (0 : Fin 1) := by
    funext a
    apply Fin.ext
    match a with
    | ⟨0, _⟩ => show win2_7.index t 0 * 5000 + 1 * p.val = 5000 * t.val + p.val; rw [e0]; omega
    | ⟨1, _⟩ => show win2_7.index t 1 * 1 + 1 * 0 = 0; rw [e1]
  show k2_pay1 (F := Ideal) (iblk2 V c 0 t) (iblk2 V c 1 t) (iblk2 V c 2 t) (iblk2 V c 3 t) (iblk2 V c 4 t) (iblk2 V c 5 t) (iblk2 V c 6 t) (ix2 p (0 : Fin 1))
      = G V c (((cfg2.win 7).blk t).view.emb (ix2 p (0 : Fin 1)))
  rw [hi]
  refine (pay2_apply (iblk2 V c 0 t) (iblk2 V c 1 t) (iblk2 V c 2 t) (iblk2 V c 3 t) (iblk2 V c 4 t) (iblk2 V c 5 t) (iblk2 V c 6 t) p 0).trans ?_
  unfold G
  rw [stagedLast_ix2]
  unfold stagedLastAt stagedLayerAt
  have s0 : ∀ k : Fin 128, (iblk2 V c 0 t : Vec Ideal S5000x128 .f32) (ix2 p k) = (V c main_v40 : S50000x128.Idx → EReal) (ix2 (⟨5000 * t.val + p.val, hp⟩ : Fin 50000) k) :=
    fun k => blk_h V c t (ix2 p k) (ix2 (⟨5000 * t.val + p.val, hp⟩ : Fin 50000) k) rfl rfl
  have s1 : ∀ k : Fin 128, (iblk2 V c 1 t : Vec Ideal S5000x128 .f32) (ix2 p k) = (V c main_v52 : S50000x128.Idx → EReal) (ix2 (⟨5000 * t.val + p.val, hp⟩ : Fin 50000) k) :=
    fun k => blk_hn V c t (ix2 p k) (ix2 (⟨5000 * t.val + p.val, hp⟩ : Fin 50000) k) rfl rfl
  simp only [s0, s1, blk_A V c t, blk_B V c t, blk_r V c t, blk_fc V c t, blk_fr V c t]

/-- An index of the result array lies in point t's block iff each coordinate lies in the block's range. -/
theorem mem_blk (t : Fin cfg2.N) (i : S50000x1.Idx) :
    i ∈ ((cfg2.win 7).blk t).view.set ↔ ∀ a : Fin 2, win2_7.index t a * S5000x1.size a ≤ (i a).val ∧ (i a).val < win2_7.index t a * S5000x1.size a + S5000x1.size a := by
  show i ∈ ((View.whole main_v58).slice (win2_7.rect t)).set ↔ _
  rw [View.set_slice_whole, Rect.mem_set_unit]
  exact Iff.rfl

/-- After the last point the result array is the third layer followed by the head: the row blocks tile it. -/
theorem final (c : Dev nD) : (dat2 V c).arrAt 7 cfg2.N = G V c :=
  (dat2 V c).arrAt_eq_of_cover 7 (G V c) (fun t _ => flushed_eq V c t) fun i => by
    have hi0 : (i 0).val < 50000 := (i 0).isLt
    have hi1 : (i 1).val < 1 := (i 1).isLt
    have hT : (i 0).val / 5000 < cfg2.N := by rw [show cfg2.N = 10 from N_2]; omega
    obtain ⟨-, -, -, -, -, -, -, -, -, -, -, -, -, -, e0, e1, -⟩ := idx_facts ⟨(i 0).val / 5000, hT⟩
    refine ⟨⟨(i 0).val / 5000, hT⟩, flush2_7 _, ?_⟩
    rw [mem_blk]
    intro a
    match a with
    | ⟨0, _⟩ => show win2_7.index ⟨(i 0).val / 5000, hT⟩ 0 * 5000 ≤ (i 0).val ∧ (i 0).val < win2_7.index ⟨(i 0).val / 5000, hT⟩ 0 * 5000 + 5000; rw [e0]; show (i 0).val / 5000 * 5000 ≤ (i 0).val ∧ (i 0).val < (i 0).val / 5000 * 5000 + 5000; omega
    | ⟨1, _⟩ => show win2_7.index ⟨(i 0).val / 5000, hT⟩ 1 * 1 ≤ (i 1).val ∧ (i 1).val < win2_7.index ⟨(i 0).val / 5000, hT⟩ 1 * 1 + 1; rw [e1]; omega

end Cert.KernelIdeal.Region2

end
-- ==== Proof.HostValue.lean ====
/-
  The idealized kernel's result array, as a function of the fourteen arguments.

  Between the regions the host computes, from the current node features h, the aggregated neighbour features
  agg h: gather the rows of h at the edges' sources (a negative index wrapped by the number of nodes), sum them
  onto the rows of the edges' destinations, and scale row i by the inverse of max(in-degree of i, 1) — the
  in-degree itself a sum of ones onto the destinations, computed once before the first region. It also transposes
  each layer's two weight matrices, reshapes each bias to a row, transposes the head's weights to a column and
  reshapes the head's bias to a 1 x 1 array. No host operation and no region writes an argument, the inverse
  in-degree column is written once, and each region writes only its own output; so every array a region is entered
  with is, read back through the program's boundaries, either an argument, a transposed or reshaped argument,
  the previous region's output, or agg of the previous region's output. With the three regions' results
  (each a staged layer of its entry arrays) the result array is the specification's network over agg.
-/
import proofs.«132443_j46265387712895_1_alg».proof.Proof.Gen.KernelIdeal.Frame
import proofs.«132443_j46265387712895_1_alg».proof.Proof.Region0
import proofs.«132443_j46265387712895_1_alg».proof.Proof.Region1
import proofs.«132443_j46265387712895_1_alg».proof.Proof.Region2
import Idealize.ShloMosaic.Lib.StableHlo.Run
import Idealize.ShloMosaic.Lib.Pipeline.Value

set_option maxRecDepth 16384

noncomputable section

open scoped BigOperators

namespace Cert.KernelIdeal.HostValue

open Cert.KernelIdeal Cert.KernelIdeal.Gen Cert.Sage
open Idealize.ShloMosaic Idealize.ShloMosaic.ValueIdx Idealize.ShloMosaic.TcCoe Idealize.SL.Sem Idealize.ShloMosaic.StableHlo

/-! ## The host's aggregation, as functions of arrays -/

/-- The inverse in-degree column: one over the larger of the number of edges arriving at a node and one. -/
def invdeg (dst : (⟨S600000, .i32⟩ : BufTy).Contents (Elt Ideal)) : (⟨S50000x1, .f32⟩ : BufTy).Contents (Elt Ideal) :=
  broadcastInDim S50000x1 ![0] bcast_S50000_S50000x1_0
    (Host.divf (F := Ideal) (φ := .f32) (broadcastInDim S50000 ![] bcast_S_S50000 (constant (F := Ideal) S_ .f32 0x3F800000#32))
      (maximumf (F := Ideal) (φ := .f32)
        (Host.scatterAdd (F := Ideal) (φ := .f32) scatter_S50000_S600000x1_S600000_n_0_0_1
          (broadcastInDim S50000 ![] bcast_S_S50000 (constant (F := Ideal) S_ .f32 0x00000000#32))
          (broadcastInDim S600000x1 ![0] bcast_S600000_S600000x1_0 dst)
          (broadcastInDim S600000 ![] bcast_S_S600000 (constant (F := Ideal) S_ .f32 0x3F800000#32)))
        (broadcastInDim S50000 ![] bcast_S_S50000 (constant (F := Ideal) S_ .f32 0x3F800000#32))))

/-- Gather along the sources, sum onto the destinations, scale the rows by a given column. -/
def aggWith (src dst : (⟨S600000, .i32⟩ : BufTy).Contents (Elt Ideal)) (inv : (⟨S50000x1, .f32⟩ : BufTy).Contents (Elt Ideal))
    (h : (⟨S50000x128, .f32⟩ : BufTy).Contents (Elt Ideal)) : (⟨S50000x128, .f32⟩ : BufTy).Contents (Elt Ideal) :=
  mulf (F := Ideal) (φ := .f32)
    (Host.scatterAdd (F := Ideal) (φ := .f32) scatter_S50000x128_S600000x1_S600000x128_1_0_0_1
      (broadcastInDim S50000x128 ![] bcast_S_S50000x128 (constant (F := Ideal) S_ .f32 0x00000000#32))
      (broadcastInDim S600000x1 ![0] bcast_S600000_S600000x1_0 dst)
      (Host.gather gather_S50000x128_S600000x1_S600000x128_1_0_n_n_0_1_1128 h
        (broadcastInDim S600000x1 ![0] bcast_S600000_S600000x1_0
          (select (cmpi .slt src (broadcastInDim S600000 ![] bcast_S_S600000 (constantI S_ 32 0#32)))
            (addi src (broadcastInDim S600000 ![] bcast_S_S600000 (constantI S_ 32 50000#32))) src))))
    (broadcastInDim S50000x128 ![0, 1] bcast_S50000x1_S50000x128_0_1 inv)

/-- The aggregation: scaled by the inverse in-degree of the destinations. -/
def agg (src dst : (⟨S600000, .i32⟩ : BufTy).Contents (Elt Ideal)) (h : (⟨S50000x128, .f32⟩ : BufTy).Contents (Elt Ideal)) :
    (⟨S50000x128, .f32⟩ : BufTy).Contents (Elt Ideal) :=
  aggWith src dst (invdeg dst) h

/-! ## Layout operations at an entry -/

/-- A transposed 128 x 128 matrix at (k, q) is the matrix at (q, k). -/
theorem tr_apply (x : (⟨S128x128, .f32⟩ : BufTy).Contents (Elt Ideal)) (k q : Fin 128) :
    transpose S128x128 [1, 0] x transposes_S128x128_S128x128_1_0 (ix2 k q) = x (ix2 q k) :=
  transpose_apply [1, 0] x transposes_S128x128_S128x128_1_0 (ix2 k q) (ix2 q k) (fun b => match b with
    | ⟨0, _⟩ => rfl
    | ⟨1, _⟩ => rfl)

/-- A 128-vector reshaped to a row at (0, q) is the vector at q. -/
theorem row_apply (x : (⟨S128, .f32⟩ : BufTy).Contents (Elt Ideal)) (q : Fin 128) :
    shapeCast S1x128 x shapeCasts_S128_S1x128 (ix2 0 q) = x (ix1 q) :=
  shapeCast_apply x shapeCasts_S128_S1x128 (ix2 0 q) (ix1 q) (by
    rw [Shape.rowMajor_val_one, Shape.rowMajor_val_two]
    show q.val = 0 * 128 + q.val
    omega)

/-- The head's 1 x 128 weights transposed to a column at (k, 0) is the weights at (0, k). -/
theorem col_apply (x : (⟨S1x128, .f32⟩ : BufTy).Contents (Elt Ideal)) (k : Fin 128) :
    transpose S128x1 [1, 0] x transposes_S1x128_S128x1_1_0 (ix2 k 0) = x (ix2 0 k) :=
  transpose_apply [1, 0] x transposes_S1x128_S128x1_1_0 (ix2 k 0) (ix2 0 k) (fun b => match b with
    | ⟨0, _⟩ => rfl
    | ⟨1, _⟩ => rfl)

/-- The head's 1-vector bias reshaped to 1 x 1 at (0, 0) is the bias at 0. -/
theorem one_apply (x : (⟨S1, .f32⟩ : BufTy).Contents (Elt Ideal)) :
    shapeCast S1x1 x shapeCasts_S1_S1x1 (ix2 0 0) = x (ix1 0) :=
  shapeCast_apply x shapeCasts_S1_S1x1 (ix2 0 0) (ix1 0) (by
    rw [Shape.rowMajor_val_one, Shape.rowMajor_val_two]
    rfl)

variable (m : (ℓ : Loc nD τ sig) → Buf (Elt Ideal) ℓ) (ρ : Dev nD → PrngReg)

/-! ## Buffers no region and no later host operation writes, read back to the launch -/

theorem W1_v8 (c : Dev nD) : W1 m ρ c (Proc.devRef .tc main_v8) = invdeg (m ((c : Thread nD τ).loc main_arg2)) := by after_results_simp <;> rfl
theorem W1_arg1 (c : Dev nD) : W1 m ρ c (Proc.devRef .tc main_arg1) = (m ((c : Thread nD τ).loc main_arg1)) := by after_results_simp <;> rfl
theorem W2_arg1 (c : Dev nD) : W2 m ρ c (Proc.devRef .tc main_arg1) = (m ((c : Thread nD τ).loc main_arg1)) := (W2_of_ne m ρ c main_arg1 (by decide)).trans (W1_arg1 m ρ c)
theorem W3_arg1 (c : Dev nD) : W3 m ρ c (Proc.devRef .tc main_arg1) = (m ((c : Thread nD τ).loc main_arg1)) :=
  (show W3 m ρ c (Proc.devRef .tc main_arg1) = W2 m ρ c (Proc.devRef .tc main_arg1) by after_results_simp <;> rfl).trans (W2_arg1 m ρ c)
theorem W4_arg1 (c : Dev nD) : W4 m ρ c (Proc.devRef .tc main_arg1) = (m ((c : Thread nD τ).loc main_arg1)) := (W4_of_ne m ρ c main_arg1 (by decide)).trans (W3_arg1 m ρ c)
theorem W1_arg2 (c : Dev nD) : W1 m ρ c (Proc.devRef .tc main_arg2) = (m ((c : Thread nD τ).loc main_arg2)) := by after_results_simp <;> rfl
theorem W2_arg2 (c : Dev nD) : W2 m ρ c (Proc.devRef .tc main_arg2) = (m ((c : Thread nD τ).loc main_arg2)) := (W2_of_ne m ρ c main_arg2 (by decide)).trans (W1_arg2 m ρ c)
theorem W3_arg2 (c : Dev nD) : W3 m ρ c (Proc.devRef .tc main_arg2) = (m ((c : Thread nD τ).loc main_arg2)) :=
  (show W3 m ρ c (Proc.devRef .tc main_arg2) = W2 m ρ c (Proc.devRef .tc main_arg2) by after_results_simp <;> rfl).trans (W2_arg2 m ρ c)
theorem W4_arg2 (c : Dev nD) : W4 m ρ c (Proc.devRef .tc main_arg2) = (m ((c : Thread nD τ).loc main_arg2)) := (W4_of_ne m ρ c main_arg2 (by decide)).trans (W3_arg2 m ρ c)
theorem W1_arg6 (c : Dev nD) : W1 m ρ c (Proc.devRef .tc main_arg6) = (m ((c : Thread nD τ).loc main_arg6)) := by after_results_simp <;> rfl
theorem W2_arg6 (c : Dev nD) : W2 m ρ c (Proc.devRef .tc main_arg6) = (m ((c : Thread nD τ).loc main_arg6)) := (W2_of_ne m ρ c main_arg6 (by decide)).trans (W1_arg6 m ρ c)
theorem W3_arg6 (c : Dev nD) : W3 m ρ c (Proc.devRef .tc main_arg6) = (m ((c : Thread nD τ).loc main_arg6)) :=
  (show W3 m ρ c (Proc.devRef .tc main_arg6) = W2 m ρ c (Proc.devRef .tc main_arg6) by after_results_simp <;> rfl).trans (W2_arg6 m ρ c)
theorem W4_arg6 (c : Dev nD) : W4 m ρ c (Proc.devRef .tc main_arg6) = (m ((c : Thread nD τ).loc main_arg6)) := (W4_of_ne m ρ c main_arg6 (by decide)).trans (W3_arg6 m ρ c)
theorem W1_arg7 (c : Dev nD) : W1 m ρ c (Proc.devRef .tc main_arg7) = (m ((c : Thread nD τ).loc main_arg7)) := by after_results_simp <;> rfl
theorem W2_arg7 (c : Dev nD) : W2 m ρ c (Proc.devRef .tc main_arg7) = (m ((c : Thread nD τ).loc main_arg7)) := (W2_of_ne m ρ c main_arg7 (by decide)).trans (W1_arg7 m ρ c)
theorem W3_arg7 (c : Dev nD) : W3 m ρ c (Proc.devRef .tc main_arg7) = (m ((c : Thread nD τ).loc main_arg7)) :=
  (show W3 m ρ c (Proc.devRef .tc main_arg7) = W2 m ρ c (Proc.devRef .tc main_arg7) by after_results_simp <;> rfl).trans (W2_arg7 m ρ c)
theorem W4_arg7 (c : Dev nD) : W4 m ρ c (Proc.devRef .tc main_arg7) = (m ((c : Thread nD τ).loc main_arg7)) := (W4_of_ne m ρ c main_arg7 (by decide)).trans (W3_arg7 m ρ c)
theorem W1_arg8 (c : Dev nD) : W1 m ρ c (Proc.devRef .tc main_arg8) = (m ((c : Thread nD τ).loc main_arg8)) := by after_results_simp <;> rfl
theorem W2_arg8 (c : Dev nD) : W2 m ρ c (Proc.devRef .tc main_arg8) = (m ((c : Thread nD τ).loc main_arg8)) := (W2_of_ne m ρ c main_arg8 (by decide)).trans (W1_arg8 m ρ c)
theorem W3_arg8 (c : Dev nD) : W3 m ρ c (Proc.devRef .tc main_arg8) = (m ((c : Thread nD τ).loc main_arg8)) :=
  (show W3 m ρ c (Proc.devRef .tc main_arg8) = W2 m ρ c (Proc.devRef .tc main_arg8) by after_results_simp <;> rfl).trans (W2_arg8 m ρ c)
theorem W4_arg8 (c : Dev nD) : W4 m ρ c (Proc.devRef .tc main_arg8) = (m ((c : Thread nD τ).loc main_arg8)) := (W4_of_ne m ρ c main_arg8 (by decide)).trans (W3_arg8 m ρ c)
theorem W1_arg9 (c : Dev nD) : W1 m ρ c (Proc.devRef .tc main_arg9) = (m ((c : Thread nD τ).loc main_arg9)) := by after_results_simp <;> rfl
theorem W2_arg9 (c : Dev nD) : W2 m ρ c (Proc.devRef .tc main_arg9) = (m ((c : Thread nD τ).loc main_arg9)) := (W2_of_ne m ρ c main_arg9 (by decide)).trans (W1_arg9 m ρ c)
theorem W3_arg9 (c : Dev nD) : W3 m ρ c (Proc.devRef .tc main_arg9) = (m ((c : Thread nD τ).loc main_arg9)) :=
  (show W3 m ρ c (Proc.devRef .tc main_arg9) = W2 m ρ c (Proc.devRef .tc main_arg9) by after_results_simp <;> rfl).trans (W2_arg9 m ρ c)
theorem W4_arg9 (c : Dev nD) : W4 m ρ c (Proc.devRef .tc main_arg9) = (m ((c : Thread nD τ).loc main_arg9)) := (W4_of_ne m ρ c main_arg9 (by decide)).trans (W3_arg9 m ρ c)
theorem W1_arg10 (c : Dev nD) : W1 m ρ c (Proc.devRef .tc main_arg10) = (m ((c : Thread nD τ).loc main_arg10)) := by after_results_simp <;> rfl
theorem W2_arg10 (c : Dev nD) : W2 m ρ c (Proc.devRef .tc main_arg10) = (m ((c : Thread nD τ).loc main_arg10)) := (W2_of_ne m ρ c main_arg10 (by decide)).trans (W1_arg10 m ρ c)
theorem W3_arg10 (c : Dev nD) : W3 m ρ c (Proc.devRef .tc main_arg10) = (m ((c : Thread nD τ).loc main_arg10)) :=
  (show W3 m ρ c (Proc.devRef .tc main_arg10) = W2 m ρ c (Proc.devRef .tc main_arg10) by after_results_simp <;> rfl).trans (W2_arg10 m ρ c)
theorem W4_arg10 (c : Dev nD) : W4 m ρ c (Proc.devRef .tc main_arg10) = (m ((c : Thread nD τ).loc main_arg10)) := (W4_of_ne m ρ c main_arg10 (by decide)).trans (W3_arg10 m ρ c)
theorem W1_arg11 (c : Dev nD) : W1 m ρ c (Proc.devRef .tc main_arg11) = (m ((c : Thread nD τ).loc main_arg11)) := by after_results_simp <;> rfl
theorem W2_arg11 (c : Dev nD) : W2 m ρ c (Proc.devRef .tc main_arg11) = (m ((c : Thread nD τ).loc main_arg11)) := (W2_of_ne m ρ c main_arg11 (by decide)).trans (W1_arg11 m ρ c)
theorem W3_arg11 (c : Dev nD) : W3 m ρ c (Proc.devRef .tc main_arg11) = (m ((c : Thread nD τ).loc main_arg11)) :=
  (show W3 m ρ c (Proc.devRef .tc main_arg11) = W2 m ρ c (Proc.devRef .tc main_arg11) by after_results_simp <;> rfl).trans (W2_arg11 m ρ c)
theorem W4_arg11 (c : Dev nD) : W4 m ρ c (Proc.devRef .tc main_arg11) = (m ((c : Thread nD τ).loc main_arg11)) := (W4_of_ne m ρ c main_arg11 (by decide)).trans (W3_arg11 m ρ c)
theorem W1_arg12 (c : Dev nD) : W1 m ρ c (Proc.devRef .tc main_arg12) = (m ((c : Thread nD τ).loc main_arg12)) := by after_results_simp <;> rfl
theorem W2_arg12 (c : Dev nD) : W2 m ρ c (Proc.devRef .tc main_arg12) = (m ((c : Thread nD τ).loc main_arg12)) := (W2_of_ne m ρ c main_arg12 (by decide)).trans (W1_arg12 m ρ c)
theorem W3_arg12 (c : Dev nD) : W3 m ρ c (Proc.devRef .tc main_arg12) = (m ((c : Thread nD τ).loc main_arg12)) :=
  (show W3 m ρ c (Proc.devRef .tc main_arg12) = W2 m ρ c (Proc.devRef .tc main_arg12) by after_results_simp <;> rfl).trans (W2_arg12 m ρ c)
theorem W4_arg12 (c : Dev nD) : W4 m ρ c (Proc.devRef .tc main_arg12) = (m ((c : Thread nD τ).loc main_arg12)) := (W4_of_ne m ρ c main_arg12 (by decide)).trans (W3_arg12 m ρ c)
theorem W1_arg13 (c : Dev nD) : W1 m ρ c (Proc.devRef .tc main_arg13) = (m ((c : Thread nD τ).loc main_arg13)) := by after_results_simp <;> rfl
theorem W2_arg13 (c : Dev nD) : W2 m ρ c (Proc.devRef .tc main_arg13) = (m ((c : Thread nD τ).loc main_arg13)) := (W2_of_ne m ρ c main_arg13 (by decide)).trans (W1_arg13 m ρ c)
theorem W3_arg13 (c : Dev nD) : W3 m ρ c (Proc.devRef .tc main_arg13) = (m ((c : Thread nD τ).loc main_arg13)) :=
  (show W3 m ρ c (Proc.devRef .tc main_arg13) = W2 m ρ c (Proc.devRef .tc main_arg13) by after_results_simp <;> rfl).trans (W2_arg13 m ρ c)
theorem W4_arg13 (c : Dev nD) : W4 m ρ c (Proc.devRef .tc main_arg13) = (m ((c : Thread nD τ).loc main_arg13)) := (W4_of_ne m ρ c main_arg13 (by decide)).trans (W3_arg13 m ρ c)
theorem W2_v8 (c : Dev nD) : W2 m ρ c (Proc.devRef .tc main_v8) = (invdeg (m ((c : Thread nD τ).loc main_arg2))) := (W2_of_ne m ρ c main_v8 (by decide)).trans (W1_v8 m ρ c)
theorem W3_v8 (c : Dev nD) : W3 m ρ c (Proc.devRef .tc main_v8) = (invdeg (m ((c : Thread nD τ).loc main_arg2))) :=
  (show W3 m ρ c (Proc.devRef .tc main_v8) = W2 m ρ c (Proc.devRef .tc main_v8) by after_results_simp <;> rfl).trans (W2_v8 m ρ c)
theorem W4_v8 (c : Dev nD) : W4 m ρ c (Proc.devRef .tc main_v8) = (invdeg (m ((c : Thread nD τ).loc main_arg2))) := (W4_of_ne m ρ c main_v8 (by decide)).trans (W3_v8 m ρ c)

/-! ## Region 0 -/

theorem W1_arg0 (c : Dev nD) : W1 m ρ c (Proc.devRef .tc main_arg0) = (m ((c : Thread nD τ).loc main_arg0)) := by after_results_simp <;> rfl
theorem W1_v20 (c : Dev nD) : W1 m ρ c (Proc.devRef .tc main_v20) = agg (m ((c : Thread nD τ).loc main_arg1)) (m ((c : Thread nD τ).loc main_arg2)) (m ((c : Thread nD τ).loc main_arg0)) := by after_results_simp <;> rfl
theorem W1_v21 (c : Dev nD) : W1 m ρ c (Proc.devRef .tc main_v21) = transpose S128x128 [1, 0] (m ((c : Thread nD τ).loc main_arg3)) transposes_S128x128_S128x128_1_0 := by after_results_simp <;> rfl
theorem W1_v22 (c : Dev nD) : W1 m ρ c (Proc.devRef .tc main_v22) = transpose S128x128 [1, 0] (m ((c : Thread nD τ).loc main_arg4)) transposes_S128x128_S128x128_1_0 := by after_results_simp <;> rfl
theorem W1_v23 (c : Dev nD) : W1 m ρ c (Proc.devRef .tc main_v23) = shapeCast S1x128 (m ((c : Thread nD τ).loc main_arg5)) shapeCasts_S128_S1x128 := by after_results_simp <;> rfl

/-- The features after layer 0. -/
def H1 (c : Dev nD) : Arr2 50000 128 :=
  layer (m ((c : Thread nD τ).loc main_arg0)) (agg (m ((c : Thread nD τ).loc main_arg1)) (m ((c : Thread nD τ).loc main_arg2)) (m ((c : Thread nD τ).loc main_arg0))) (m ((c : Thread nD τ).loc main_arg3)) (m ((c : Thread nD τ).loc main_arg4)) (m ((c : Thread nD τ).loc main_arg5))

theorem W2_v24 (c : Dev nD) : W2 m ρ c (Proc.devRef .tc main_v24) = H1 m c := by
  refine (W2_arr m ρ c 5).trans ((Region0.final (V1 m ρ) c).trans ?_)
  show stagedLayer (W1 m ρ c (Proc.devRef .tc main_arg0)) (W1 m ρ c (Proc.devRef .tc main_v20)) (W1 m ρ c (Proc.devRef .tc main_v21)) (W1 m ρ c (Proc.devRef .tc main_v22)) (W1 m ρ c (Proc.devRef .tc main_v23)) = _
  rw [W1_arg0, W1_v20, W1_v21, W1_v22, W1_v23]
  exact stagedLayer_eq _ _ _ _ _ _ _ _ (fun k q => tr_apply _ k q) (fun k q => tr_apply _ k q) (fun q => row_apply _ q)

/-! ## Region 1 -/

theorem W3_v24 (c : Dev nD) : W3 m ρ c (Proc.devRef .tc main_v24) = H1 m c :=
  (show W3 m ρ c (Proc.devRef .tc main_v24) = W2 m ρ c (Proc.devRef .tc main_v24) by after_results_simp <;> rfl).trans (W2_v24 m ρ c)
theorem W3_v36 (c : Dev nD) : W3 m ρ c (Proc.devRef .tc main_v36) = agg (m ((c : Thread nD τ).loc main_arg1)) (m ((c : Thread nD τ).loc main_arg2)) (H1 m c) :=
  (show W3 m ρ c (Proc.devRef .tc main_v36) = aggWith (W2 m ρ c (Proc.devRef .tc main_arg1)) (W2 m ρ c (Proc.devRef .tc main_arg2)) (W2 m ρ c (Proc.devRef .tc main_v8)) (W2 m ρ c (Proc.devRef .tc main_v24))
    by after_results_simp <;> rfl).trans (by rw [W2_arg1, W2_arg2, W2_v8, W2_v24]; rfl)
theorem W3_v37 (c : Dev nD) : W3 m ρ c (Proc.devRef .tc main_v37) = transpose S128x128 [1, 0] (m ((c : Thread nD τ).loc main_arg6)) transposes_S128x128_S128x128_1_0 :=
  (show W3 m ρ c (Proc.devRef .tc main_v37) = transpose S128x128 [1, 0] (W2 m ρ c (Proc.devRef .tc main_arg6)) transposes_S128x128_S128x128_1_0 by after_results_simp <;> rfl).trans (by rw [W2_arg6])
theorem W3_v38 (c : Dev nD) : W3 m ρ c (Proc.devRef .tc main_v38) = transpose S128x128 [1, 0] (m ((c : Thread nD τ).loc main_arg7)) transposes_S128x128_S128x128_1_0 :=
  (show W3 m ρ c (Proc.devRef .tc main_v38) = transpose S128x128 [1, 0] (W2 m ρ c (Proc.devRef .tc main_arg7)) transposes_S128x128_S128x128_1_0 by after_results_simp <;> rfl).trans (by rw [W2_arg7])
theorem W3_v39 (c : Dev nD) : W3 m ρ c (Proc.devRef .tc main_v39) = shapeCast S1x128 (m ((c : Thread nD τ).loc main_arg8)) shapeCasts_S128_S1x128 :=
  (show W3 m ρ c (Proc.devRef .tc main_v39) = shapeCast S1x128 (W2 m ρ c (Proc.devRef .tc main_arg8)) shapeCasts_S128_S1x128 by after_results_simp <;> rfl).trans (by rw [W2_arg8])

/-- The features after layer 1. -/
def H2 (c : Dev nD) : Arr2 50000 128 :=
  layer (H1 m c) (agg (m ((c : Thread nD τ).loc main_arg1)) (m ((c : Thread nD τ).loc main_arg2)) (H1 m c)) (m ((c : Thread nD τ).loc main_arg6)) (m ((c : Thread nD τ).loc main_arg7)) (m ((c : Thread nD τ).loc main_arg8))

theorem W4_v40 (c : Dev nD) : W4 m ρ c (Proc.devRef .tc main_v40) = H2 m c := by
  refine (W4_arr m ρ c 5).trans ((Region1.final (V3 m ρ) c).trans ?_)
  show stagedLayer (W3 m ρ c (Proc.devRef .tc main_v24)) (W3 m ρ c (Proc.devRef .tc main_v36)) (W3 m ρ c (Proc.devRef .tc main_v37)) (W3 m ρ c (Proc.devRef .tc main_v38)) (W3 m ρ c (Proc.devRef .tc main_v39)) = _
  rw [W3_v24, W3_v36, W3_v37, W3_v38, W3_v39]
  exact stagedLayer_eq _ _ _ _ _ _ _ _ (fun k q => tr_apply _ k q) (fun k q => tr_apply _ k q) (fun q => row_apply _ q)

/-! ## Region 2 -/

theorem W5_v40 (c : Dev nD) : W5 m ρ c (Proc.devRef .tc main_v40) = H2 m c :=
  (show W5 m ρ c (Proc.devRef .tc main_v40) = W4 m ρ c (Proc.devRef .tc main_v40) by after_results_simp <;> rfl).trans (W4_v40 m ρ c)
theorem W5_v52 (c : Dev nD) : W5 m ρ c (Proc.devRef .tc main_v52) = agg (m ((c : Thread nD τ).loc main_arg1)) (m ((c : Thread nD τ).loc main_arg2)) (H2 m c) :=
  (show W5 m ρ c (Proc.devRef .tc main_v52) = aggWith (W4 m ρ c (Proc.devRef .tc main_arg1)) (W4 m ρ c (Proc.devRef .tc main_arg2)) (W4 m ρ c (Proc.devRef .tc main_v8)) (W4 m ρ c (Proc.devRef .tc main_v40))
    by after_results_simp <;> rfl).trans (by rw [W4_arg1, W4_arg2, W4_v8, W4_v40]; rfl)
theorem W5_v53 (c : Dev nD) : W5 m ρ c (Proc.devRef .tc main_v53) = transpose S128x128 [1, 0] (m ((c : Thread nD τ).loc main_arg9)) transposes_S128x128_S128x128_1_0 :=
  (show W5 m ρ c (Proc.devRef .tc main_v53) = transpose S128x128 [1, 0] (W4 m ρ c (Proc.devRef .tc main_arg9)) transposes_S128x128_S128x128_1_0 by after_results_simp <;> rfl).trans (by rw [W4_arg9])
theorem W5_v54 (c : Dev nD) : W5 m ρ c (Proc.devRef .tc main_v54) = transpose S128x128 [1, 0] (m ((c : Thread nD τ).loc main_arg10)) transposes_S128x128_S128x128_1_0 :=
  (show W5 m ρ c (Proc.devRef .tc main_v54) = transpose S128x128 [1, 0] (W4 m ρ c (Proc.devRef .tc main_arg10)) transposes_S128x128_S128x128_1_0 by after_results_simp <;> rfl).trans (by rw [W4_arg10])
theorem W5_v55 (c : Dev nD) : W5 m ρ c (Proc.devRef .tc main_v55) = shapeCast S1x128 (m ((c : Thread nD τ).loc main_arg11)) shapeCasts_S128_S1x128 :=
  (show W5 m ρ c (Proc.devRef .tc main_v55) = shapeCast S1x128 (W4 m ρ c (Proc.devRef .tc main_arg11)) shapeCasts_S128_S1x128 by after_results_simp <;> rfl).trans (by rw [W4_arg11])
theorem W5_v56 (c : Dev nD) : W5 m ρ c (Proc.devRef .tc main_v56) = transpose S128x1 [1, 0] (m ((c : Thread nD τ).loc main_arg12)) transposes_S1x128_S128x1_1_0 :=
  (show W5 m ρ c (Proc.devRef .tc main_v56) = transpose S128x1 [1, 0] (W4 m ρ c (Proc.devRef .tc main_arg12)) transposes_S1x128_S128x1_1_0 by after_results_simp <;> rfl).trans (by rw [W4_arg12])
theorem W5_v57 (c : Dev nD) : W5 m ρ c (Proc.devRef .tc main_v57) = shapeCast S1x1 (m ((c : Thread nD τ).loc main_arg13)) shapeCasts_S1_S1x1 :=
  (show W5 m ρ c (Proc.devRef .tc main_v57) = shapeCast S1x1 (W4 m ρ c (Proc.devRef .tc main_arg13)) shapeCasts_S1_S1x1 by after_results_simp <;> rfl).trans (by rw [W4_arg13])

/-- The result array after the last region is the specification's network over the host's aggregation. -/
theorem W6_v58 (c : Dev nD) : W6 m ρ c (Proc.devRef .tc main_v58)
    = net (agg (m ((c : Thread nD τ).loc main_arg1)) (m ((c : Thread nD τ).loc main_arg2))) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W6_arr m ρ c 7).trans ((Region2.final (V5 m ρ) c).trans ?_)
  show stagedLast (W5 m ρ c (Proc.devRef .tc main_v40)) (W5 m ρ c (Proc.devRef .tc main_v52)) (W5 m ρ c (Proc.devRef .tc main_v53)) (W5 m ρ c (Proc.devRef .tc main_v54)) (W5 m ρ c (Proc.devRef .tc main_v55)) (W5 m ρ c (Proc.devRef .tc main_v56)) (W5 m ρ c (Proc.devRef .tc main_v57)) = _
  rw [W5_v40, W5_v52, W5_v53, W5_v54, W5_v55, W5_v56, W5_v57]
  exact stagedLast_eq _ _ _ _ _ _ _ _ _ _ _ _ (fun k q => tr_apply _ k q) (fun k q => tr_apply _ k q) (fun q => row_apply _ q)
    (fun k => col_apply _ k) (one_apply _)

end Cert.KernelIdeal.HostValue

end
-- ==== Proof.RefValue.lean ====
/-
  The reference program's result is the network of the specification, over the reference's own aggregation.

  Each of the reference's three layers is, operation for operation, the same composition applied to different
  arrays: the features times the transposed self weights, plus the bias broadcast over the rows, plus the aggregated
  neighbour features times the transposed neighbour weights, clamped at zero. Read at node p and feature q, a
  product against a transposed matrix is the inner product of row p with row q of the untransposed matrix, and the
  broadcast bias is its entry q; the sum is the specification's entry with the bias added second, which equals the
  specification's entry with the bias added last. The head is one more inner product and a broadcast 1-entry bias.
  The aggregation (gather along the sources, sum onto the destinations, scale by the inverse in-degree) is kept as
  one function of the feature array and never opened.
-/
import proofs.«132443_j46265387712895_1_alg».proof.Proof.Gen.ReferenceIdeal.Run
import proofs.«132443_j46265387712895_1_alg».proof.Proof.Gen.ReferenceIdeal.Read
import proofs.«132443_j46265387712895_1_alg».proof.Proof.Spec

set_option maxRecDepth 16384

noncomputable section

open scoped BigOperators

namespace Cert.ReferenceIdeal.RefValue

open Cert.ReferenceIdeal Cert.ReferenceIdeal.Gen Cert.ReferenceIdeal.Read Cert.Sage
open Idealize.ShloMosaic Idealize.ShloMosaic.ValueIdx Idealize.ShloMosaic.TcCoe Idealize.SL.Sem

/-- The reference's aggregation of a feature array h along the edges (sources x1, destinations x2): gather the
    sources' rows, sum them onto the destinations' rows, scale each row by the inverse in-degree. -/
abbrev agg (x1 x2 : (⟨S600000, .i32⟩ : BufTy).Contents (Elt Ideal)) (h : (⟨S50000x128, .f32⟩ : BufTy).Contents (Elt Ideal)) :
    (⟨S50000x128, .f32⟩ : BufTy).Contents (Elt Ideal) :=
  val_main_v20 (F := Ideal) h x1 x2

/-- One layer of the reference, as its operations on arrays. -/
def refLayer (h hn : (⟨S50000x128, .f32⟩ : BufTy).Contents (Elt Ideal)) (Ws Wn : (⟨S128x128, .f32⟩ : BufTy).Contents (Elt Ideal))
    (b : (⟨S128, .f32⟩ : BufTy).Contents (Elt Ideal)) : (⟨S50000x128, .f32⟩ : BufTy).Contents (Elt Ideal) :=
  maximumf (F := Ideal) (φ := .f32) (addf (F := Ideal) (φ := .f32) (val_main_v25 (F := Ideal) h Ws b) (val_main_v22 (F := Ideal) hn Wn))
    (val_main_call0_v0 (F := Ideal))

/-! ## The index functions of the reference's reads, as coordinates -/

theorem lidx22 (p : Fin 50000) (q k : Fin 128) : lidx_main_v22 (ix2 p q) k = ix2 p k :=
  funext fun a => Fin.ext (by match a with | ⟨0, _⟩ => rfl | ⟨1, _⟩ => rfl)
theorem ridx22 (p : Fin 50000) (q k : Fin 128) : idx_main_v21 (ridx_main_v22 (ix2 p q) k) = ix2 q k :=
  funext fun a => Fin.ext (by match a with | ⟨0, _⟩ => rfl | ⟨1, _⟩ => rfl)
theorem bidx24 (p : Fin 50000) (q : Fin 128) : idx_main_v23 (idx_main_v24 (ix2 p q)) = ix1 q :=
  funext fun a => Fin.ext (by match a with | ⟨0, _⟩ => rfl)

/-- A layer of the reference is the specification's layer. -/
theorem refLayer_eq (h hn : (⟨S50000x128, .f32⟩ : BufTy).Contents (Elt Ideal)) (Ws Wn : (⟨S128x128, .f32⟩ : BufTy).Contents (Elt Ideal))
    (b : (⟨S128, .f32⟩ : BufTy).Contents (Elt Ideal)) : refLayer h hn Ws Wn b = layer h hn Ws Wn b := by
  funext i
  obtain ⟨p, q, rfl⟩ : ∃ (p : Fin 50000) (q : Fin 128), i = ix2 p q := ⟨i 0, i 1, eq_ix2 i⟩
  rw [layer_ix2, ← layerAt'_eq]
  unfold refLayer layerAt'
  rw [maximumf_apply, addf_apply, val_main_v25_apply, val_main_v22_apply, val_main_v22_apply, val_main_v24_apply, val_main_v23_apply,
    val_main_call0_v0_apply, val_main_call0_cst_apply]
  simp only [val_main_v21_apply, lidx22, ridx22, bidx24, Ideal.addf_def, Ideal.maximumf_def, Ideal.ofBits_def]
  exact congrArg (max _) Ideal.ofBits_zero_f32

/-! ## The three layers and the head of the printed reference -/

theorem agg0 (x0 : (⟨S50000x128, .f32⟩ : BufTy).Contents (Elt Ideal)) (x1 x2 : (⟨S600000, .i32⟩ : BufTy).Contents (Elt Ideal)) :
    val_main_v20 (F := Ideal) x0 x1 x2 = agg x1 x2 x0 := rfl

theorem layer0 (x0 : (⟨S50000x128, .f32⟩ : BufTy).Contents (Elt Ideal)) (x1 x2 : (⟨S600000, .i32⟩ : BufTy).Contents (Elt Ideal))
    (x3 x4 : (⟨S128x128, .f32⟩ : BufTy).Contents (Elt Ideal)) (x5 : (⟨S128, .f32⟩ : BufTy).Contents (Elt Ideal)) :
    val_main_v29 (F := Ideal) x0 x1 x2 x3 x4 x5 = layer x0 (agg x1 x2 x0) x3 x4 x5 :=
  (show val_main_v29 (F := Ideal) x0 x1 x2 x3 x4 x5 = refLayer x0 (agg x1 x2 x0) x3 x4 x5 from rfl).trans (refLayer_eq _ _ _ _ _)

theorem agg1 (x0 : (⟨S50000x128, .f32⟩ : BufTy).Contents (Elt Ideal)) (x1 x2 : (⟨S600000, .i32⟩ : BufTy).Contents (Elt Ideal)) (x3 x4 : (⟨S128x128, .f32⟩ : BufTy).Contents (Elt Ideal)) (x5 : (⟨S128, .f32⟩ : BufTy).Contents (Elt Ideal)) :
    val_main_v41 (F := Ideal) x0 x1 x2 x3 x4 x5 = agg x1 x2 (val_main_v29 (F := Ideal) x0 x1 x2 x3 x4 x5) := rfl

theorem layer1 (x0 : (⟨S50000x128, .f32⟩ : BufTy).Contents (Elt Ideal)) (x1 x2 : (⟨S600000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) :
    val_main_v50 (F := Ideal) x0 x1 x2 x3 x4 x5 x6 x7 x8
      = layer (val_main_v29 (F := Ideal) x0 x1 x2 x3 x4 x5) (agg x1 x2 (val_main_v29 (F := Ideal) x0 x1 x2 x3 x4 x5)) x6 x7 x8 :=
  (show val_main_v50 (F := Ideal) x0 x1 x2 x3 x4 x5 x6 x7 x8
      = refLayer (val_main_v29 (F := Ideal) x0 x1 x2 x3 x4 x5) (agg x1 x2 (val_main_v29 (F := Ideal) x0 x1 x2 x3 x4 x5)) x6 x7 x8 from rfl).trans
    (refLayer_eq _ _ _ _ _)

theorem agg2 (x0 : (⟨S50000x128, .f32⟩ : BufTy).Contents (Elt Ideal)) (x1 x2 : (⟨S600000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) :
    val_main_v62 (F := Ideal) x0 x1 x2 x3 x4 x5 x6 x7 x8 = agg x1 x2 (val_main_v50 (F := Ideal) x0 x1 x2 x3 x4 x5 x6 x7 x8) := rfl

theorem layer2 (x0 : (⟨S50000x128, .f32⟩ : BufTy).Contents (Elt Ideal)) (x1 x2 : (⟨S600000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) (x9 x10 : (⟨S128x128, .f32⟩ : BufTy).Contents (Elt Ideal)) (x11 : (⟨S128, .f32⟩ : BufTy).Contents (Elt Ideal)) :
    val_main_v71 (F := Ideal) x0 x1 x2 x3 x4 x5 x6 x7 x8 x9 x10 x11
      = layer (val_main_v50 (F := Ideal) x0 x1 x2 x3 x4 x5 x6 x7 x8) (agg x1 x2 (val_main_v50 (F := Ideal) x0 x1 x2 x3 x4 x5 x6 x7 x8)) x9 x10 x11 :=
  (show val_main_v71 (F := Ideal) x0 x1 x2 x3 x4 x5 x6 x7 x8 x9 x10 x11
      = refLayer (val_main_v50 (F := Ideal) x0 x1 x2 x3 x4 x5 x6 x7 x8) (agg x1 x2 (val_main_v50 (F := Ideal) x0 x1 x2 x3 x4 x5 x6 x7 x8)) x9 x10 x11 from rfl).trans
    (refLayer_eq _ _ _ _ _)

theorem lidx73 (p : Fin 50000) (k : Fin 128) : lidx_main_v73 (ix2 p (0 : Fin 1)) k = ix2 p k :=
  funext fun a => Fin.ext (by match a with | ⟨0, _⟩ => rfl | ⟨1, _⟩ => rfl)
theorem ridx73 (p : Fin 50000) (k : Fin 128) : idx_main_v72 (ridx_main_v73 (ix2 p (0 : Fin 1)) k) = ix2 (0 : Fin 1) k :=
  funext fun a => Fin.ext (by match a with | ⟨0, _⟩ => rfl | ⟨1, _⟩ => rfl)
theorem bidx75 (p : Fin 50000) : idx_main_v74 (idx_main_v75 (ix2 p (0 : Fin 1))) = ix1 (0 : Fin 1) :=
  funext fun a => Fin.ext (by match a with | ⟨0, _⟩ => rfl)

/-- The reference's last two operations are the specification's head of the third layer's features. -/
theorem headEq (x0 : (⟨S50000x128, .f32⟩ : BufTy).Contents (Elt Ideal)) (x1 x2 : (⟨S600000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) (x9 x10 : (⟨S128x128, .f32⟩ : BufTy).Contents (Elt Ideal)) (x11 : (⟨S128, .f32⟩ : BufTy).Contents (Elt Ideal)) (x12 : (⟨S1x128, .f32⟩ : BufTy).Contents (Elt Ideal)) (x13 : (⟨S1, .f32⟩ : BufTy).Contents (Elt Ideal)) :
    val_main_v76 (F := Ideal) x0 x1 x2 x3 x4 x5 x6 x7 x8 x9 x10 x11 x12 x13 = head (val_main_v71 (F := Ideal) x0 x1 x2 x3 x4 x5 x6 x7 x8 x9 x10 x11) x12 x13 := by
  funext i
  obtain ⟨p, z, rfl⟩ : ∃ (p : Fin 50000) (z : Fin 1), i = ix2 p z := ⟨i 0, i 1, eq_ix2 i⟩
  obtain rfl : z = 0 := Subsingleton.elim _ _
  rw [head_ix2]
  unfold headAt
  rw [val_main_v76_apply, val_main_v73_apply, val_main_v75_apply, val_main_v74_apply]
  simp only [val_main_v72_apply, lidx73, ridx73, bidx75, Ideal.addf_def]

/-- The reference's result is the specification's network over the reference's aggregation. -/
theorem result_eq (x0 : (⟨S50000x128, .f32⟩ : BufTy).Contents (Elt Ideal)) (x1 x2 : (⟨S600000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) (x9 x10 : (⟨S128x128, .f32⟩ : BufTy).Contents (Elt Ideal)) (x11 : (⟨S128, .f32⟩ : BufTy).Contents (Elt Ideal)) (x12 : (⟨S1x128, .f32⟩ : BufTy).Contents (Elt Ideal)) (x13 : (⟨S1, .f32⟩ : BufTy).Contents (Elt Ideal)) :
    val_main_v76 (F := Ideal) x0 x1 x2 x3 x4 x5 x6 x7 x8 x9 x10 x11 x12 x13 = net (agg x1 x2) x0 x3 x4 x5 x6 x7 x8 x9 x10 x11 x12 x13 := by
  rw [headEq, layer2, layer1, layer0]
  rfl

end Cert.ReferenceIdeal.RefValue

end
-- ==== Proof.lean ====
/-
  The certificate: the kernel (three node-tiled layer regions with the host's neighbour aggregation between them)
  against the plain reference, on the extended reals.

  Both programs compute, from features x and a graph given by its edges' sources and destinations, three layers
      h  |->  max( h Ws^T + (agg h) Wn^T + b , 0 )
  followed by an output head h fw^T + fb, where agg h gathers the rows of h at the sources, sums them onto the
  destinations and scales each row by the inverse in-degree. The kernel adds the bias after both matrix products,
  the reference between them; a sum of three extended reals does not depend on that order. The aggregation is the
  same host computation in both programs and is compared as one function, never opened. Changing the float format
  inside the kernel is the identity on the extended reals, and no finiteness of the inputs is used.

  The frames of the two kernel programs are the generated frame certificates; the reference's frame is its
  generated run with the result forgotten. The idealization rewrote no operation, so preserves is trivial.
-/
import proofs.«132443_j46265387712895_1_alg».proof.Defs
import proofs.«132443_j46265387712895_1_alg».proof.Proof.Gen.Kernel
import proofs.«132443_j46265387712895_1_alg».proof.Proof.Gen.Kernel.Skeleton
import proofs.«132443_j46265387712895_1_alg».proof.Proof.Gen.Kernel.Launch
import proofs.«132443_j46265387712895_1_alg».proof.Proof.Gen.Kernel.Points
import proofs.«132443_j46265387712895_1_alg».proof.Proof.Gen.Kernel.Frame
import proofs.«132443_j46265387712895_1_alg».proof.Proof.Gen.KernelIdeal
import proofs.«132443_j46265387712895_1_alg».proof.Proof.Gen.KernelIdeal.Skeleton
import proofs.«132443_j46265387712895_1_alg».proof.Proof.Gen.KernelIdeal.Launch
import proofs.«132443_j46265387712895_1_alg».proof.Proof.Gen.KernelIdeal.Points
import proofs.«132443_j46265387712895_1_alg».proof.Proof.Gen.KernelIdeal.Frame
import proofs.«132443_j46265387712895_1_alg».proof.Proof.Gen.ReferenceIdeal
import proofs.«132443_j46265387712895_1_alg».proof.Proof.Gen.ReferenceIdeal.Run
import proofs.«132443_j46265387712895_1_alg».proof.Proof.Gen.ReferenceIdeal.Read
import proofs.«132443_j46265387712895_1_alg».proof.Proof.Gen.Pre_finite_inputs
import proofs.«132443_j46265387712895_1_alg».proof.Proof.KernelRun
import proofs.«132443_j46265387712895_1_alg».proof.Proof.HostValue
import proofs.«132443_j46265387712895_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The two programs' aggregations are one function: the same operations, each spelled with its own program's
    dimension records, which are equal field by field. -/
theorem agg_eq (x1 x2 : (⟨Cert.ReferenceIdeal.S600000, .i32⟩ : BufTy).Contents (Elt Ideal)) :
    Cert.ReferenceIdeal.RefValue.agg x1 x2 = Cert.KernelIdeal.HostValue.agg x1 x2 :=
  funext fun h => rfl

/-- Both results are the specification's network of arguments that agree. -/
theorem algebraic : Cert.algebraic_KernelIdeal_ReferenceIdeal := by
  intro m ρ m' ρ' _ hagree
  refine ⟨fun c => Cert.KernelIdeal.Gen.W6 m ρ c (Proc.devRef .tc Cert.KernelIdeal.main_v58),
    Cert.KernelIdeal.ValueRun.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13⟩ := hagree c
  show Cert.ReferenceIdeal.Value.res_main_v76 m' c
      = Cert.KernelIdeal.Gen.W6 m ρ c (Proc.devRef .tc Cert.KernelIdeal.main_v58)
  rw [Cert.ReferenceIdeal.Read.val_main_v76_eq, Cert.ReferenceIdeal.RefValue.result_eq, Cert.KernelIdeal.HostValue.W6_v58,
    h0, h1, h2, h3, h4, h5, h6, h7, h8, h9, h10, h11, h12, h13, agg_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
